-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S1024x3072 .f32) (main_arg2 : FVec F S3072 .f32) (main_arg3 : FVec F S1024x1024 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S8192x1024 : Shape := ⟨2, ![8192, 1024]⟩
abbrev S1x3072 : Shape := ⟨2, ![1, 3072]⟩
abbrev S1x1024 : Shape := ⟨2, ![1, 1024]⟩
abbrev S8192x3072 : Shape := ⟨2, ![8192, 3072]⟩
abbrev S512x1024 : Shape := ⟨2, ![512, 1024]⟩
abbrev S512x3072 : Shape := ⟨2, ![512, 3072]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩

abbrev nBuf : Space → Nat
  | .hbm => 15
  | .vmem => 20
  | .smem => 0
  | _ => 0

abbrev bufTy : (tb : Table) → Fin (tcTables nBuf tb) → BufTy
  | .hbm, ⟨0, _⟩ => ⟨S4x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S8192x1024, .f32⟩
  | .hbm, ⟨6, _⟩ => ⟨S8192x1024, .bf16⟩
  | .hbm, ⟨7, _⟩ => ⟨S1024x3072, .bf16⟩
  | .hbm, ⟨8, _⟩ => ⟨S1024x1024, .bf16⟩
  | .hbm, ⟨9, _⟩ => ⟨S1x3072, .f32⟩
  | .hbm, ⟨10, _⟩ => ⟨S1x1024, .f32⟩
  | .hbm, ⟨11, _⟩ => ⟨S8192x3072, .bf16⟩
  | .hbm, ⟨12, _⟩ => ⟨S8192x1024, .bf16⟩
  | .hbm, ⟨13, _⟩ => ⟨S8192x1024, .f32⟩
  | .hbm, ⟨14, _⟩ => ⟨S4x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S512x128, .bf16⟩
  | .local _ .vmem, ⟨7, _⟩ => ⟨S512x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S512x128, .bf16⟩
  | .local _ .vmem, ⟨13, _⟩ => ⟨S512x128, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 8, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4x2048x1024_S8192x1024 : S4x2048x1024.ShapeCasts S8192x1024
  bitsLt_bf16_f32 : FTy.bits .bf16 < FTy.bits .f32
  shapeCasts_S3072_S1x3072 : S3072.ShapeCasts S1x3072
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  slices_S512x128_o0_0_S512x64 : S512x128.Slices ![0, 0] S512x64
  slices_S2048x128_o0_0_S2048x64 : S2048x128.Slices ![0, 0] S2048x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  slices_S512x128_o0_64_S512x64 : S512x128.Slices ![0, 64] S512x64
  slices_S2048x128_o0_64_S2048x64 : S2048x128.Slices ![0, 64] S2048x64
  concatenates_S512x64_S512x64_S512x128_d1 : Shape.Concatenates [S512x64, S512x64] S512x128 1
  packedbf16_S512x128_S512x128_0_0 : (Rect.unit (s := S512x128) ![0, 0] S512x128.size inb_S512x128_S512x128_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x1024_S4x2048x1024 : S8192x1024.ShapeCasts S4x2048x1024
  dot_S512x1024_S1024x3072_S512x3072_1_0_0_1_n_n_wf : DotDims.WF S512x1024 S1024x3072 S512x3072 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S8192x3072.size a
  hwx0_3 : ∀ i : grid0.Coords, EltTy.bits .bf16 = 32 ∨ (Rect.block (s := S8192x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S8192x3072.size a
  hwx1_0 : ∀ i : grid1.Coords, EltTy.bits .bf16 = 32 ∨ (Rect.block (s := S8192x3072) S512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x3072.size a
  hwx1_1 : ∀ i : grid1.Coords, EltTy.bits .bf16 = 32 ∨ (Rect.block (s := S8192x3072) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S8192x3072.size a
  hwx1_2 : ∀ i : grid1.Coords, EltTy.bits .bf16 = 32 ∨ (Rect.block (s := S8192x3072) S2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S8192x1024.size a
  hwx1_3 : ∀ i : grid1.Coords, EltTy.bits .bf16 = 32 ∨ (Rect.block (s := S8192x1024) S512x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .f32 = 32 ∨ (Rect.block (s := S8192x1024) S1024x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v7) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S4x2048x3072 : Shape := ⟨3, ![4, 2048, 3072]⟩
abbrev S1x1x3072 : Shape := ⟨3, ![1, 1, 3072]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S1x1x1024 : Shape := ⟨3, ![1, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4x2048x3072, .f32⟩
  | .hbm, ⟨6, _⟩ => ⟨S1x1x3072, .f32⟩
  | .hbm, ⟨7, _⟩ => ⟨S4x2048x3072, .f32⟩
  | .hbm, ⟨8, _⟩ => ⟨S4x2048x3072, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S4x2048x16x64, .f32⟩
  | .hbm, ⟨13, _⟩ => ⟨S4x16x2048x64, .f32⟩
  | .hbm, ⟨14, _⟩ => ⟨S4x2048x16x64, .f32⟩
  | .hbm, ⟨15, _⟩ => ⟨S4x16x2048x64, .f32⟩
  | .hbm, ⟨16, _⟩ => ⟨S4x2048x16x64, .f32⟩
  | .hbm, ⟨17, _⟩ => ⟨S4x16x2048x64, .f32⟩
  | .hbm, ⟨18, _⟩ => ⟨S4x16x2048x2048, .f32⟩
  | .hbm, ⟨19, _⟩ => ⟨S_, .f32⟩
  | .hbm, ⟨20, _⟩ => ⟨S4x16x2048, .f32⟩
  | .hbm, ⟨21, _⟩ => ⟨S_, .f32⟩
  | .hbm, ⟨22, _⟩ => ⟨S4x16x2048, .f32⟩
  | .hbm, ⟨23, _⟩ => ⟨S4x16x2048, .f32⟩
  | .hbm, ⟨24, _⟩ => ⟨S4x16x2048x1, .f32⟩
  | .hbm, ⟨25, _⟩ => ⟨S4x16x2048x2048, .f32⟩
  | .hbm, ⟨26, _⟩ => ⟨S4x16x2048x2048, .f32⟩
  | .hbm, ⟨27, _⟩ => ⟨S4x16x2048x2048, .f32⟩
  | .hbm, ⟨28, _⟩ => ⟨S_, .f32⟩
  | .hbm, ⟨29, _⟩ => ⟨S4x16x2048, .f32⟩
  | .hbm, ⟨30, _⟩ => ⟨S4x16x2048x1, .f32⟩
  | .hbm, ⟨31, _⟩ => ⟨S4x16x2048x2048, .f32⟩
  | .hbm, ⟨32, _⟩ => ⟨S4x16x2048x2048, .f32⟩
  | .hbm, ⟨33, _⟩ => ⟨S4x16x2048x64, .f32⟩
  | .hbm, ⟨34, _⟩ => ⟨S4x2048x16x64, .f32⟩
  | .hbm, ⟨35, _⟩ => ⟨S4x2048x1024, .f32⟩
  | .hbm, ⟨36, _⟩ => ⟨S4x2048x1024, .f32⟩
  | .hbm, ⟨37, _⟩ => ⟨S1x1x1024, .f32⟩
  | .hbm, ⟨38, _⟩ => ⟨S4x2048x1024, .f32⟩
  | .hbm, ⟨39, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S1024x3072_S4x2048x3072_2_0_01_1_n_n_wf : DotDims.WF S4x2048x1024 S1024x3072 S4x2048x3072 [2] [0] [0, 1] [1] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_0_01_1_n_n_wf : DotDims.WF S4x2048x1024 S1024x1024 S4x2048x1024 [2] [0] [0, 1] [1] [] []

variable [Facts₀]

def dot_S4x2048x1024_S1024x3072_S4x2048x3072_2_0_01_1_n_n : DotDims S4x2048x1024 S1024x3072 S4x2048x3072 where
  lhsContracting := [2]
  rhsContracting := [0]
  lhsNonContracting := [0, 1]
  rhsNonContracting := [1]
  lhsBatch := []
  rhsBatch := []
  wf := dot_S4x2048x1024_S1024x3072_S4x2048x3072_2_0_01_1_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf

class Facts : Prop extends Facts₀ where

variable [Facts]
-- ==== Proof.KBody0.lean ====
/-
  Pallas call 0 of the program, at the buffer contents `V` the call is entered with: the block each window stages at a grid
  point, what the body leaves in the output window's staging buffer (its one whole-block store of the body's arithmetic of the
  three loaded blocks), the body's Hoare triple on whole staging buffers, and the pipeline's proof data with the body obligation
  at every grid point. Every input window keeps its block in place, so its staging buffer holds the block of the point whether
  or not it was fetched there.
-/
import proofs.«132570_j36283883716940_2_alg».proof.Proof.Gen.Kernel.Launch
import proofs.«132570_j36283883716940_2_alg».proof.Proof.Gen.Kernel.Skeleton
import proofs.«132570_j36283883716940_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

/-- The output window's staging buffer after the body: its one store, of the body's arithmetic of the three loaded blocks. -/
def out0_3 (x0 : Vec F S512x1024 .bf16) (x1 : Vec F S1024x3072 .bf16) (x2 : Vec F S1x3072 .f32) : Vec F S512x3072 .bf16 :=
  View.canon [⟨r0_3, k0_pay1 (View.ld x0 r0_0) (View.ld x1 r0_1) (View.ld x2 r0_2)⟩]

/-- The one store covers the buffer. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

set_option maxHeartbeats 1000000 in
/-- The body on whole staging buffers, the inputs' at contents `x0 x1 x2` and the output's at anything, runs to the continuation
    holding the inputs' as they were and the output's at `out0_3 x0 x1 x2`. -/
theorem sound_kernel0 (c : Dev nD) (E : Set ℕ) (i : grid0.Coords) (arg1 : Memref sig .tc .vmem S512x1024 .bf16) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S512x3072 .bf16) (harg4 : arg4.IsWhole)
    (x0 : Vec F S512x1024 .bf16) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-- The proof data of the call on core `c`: the arrays as the call finds them; after the body at point `t` each input's buffer
    at its block and the output's at `out0_3` of the input blocks; the scoped rest and the generator register ride along
    untouched; nothing owed. The share of each input array is `q`. -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q := q
  owed _ := 0

variable (q : Fin cfg0.W → PosShare TreeShare)

theorem A_eq0 (c : Dev nD) (w : Fin cfg0.W) : (dat0 V q c).A w = V c (Pipeline.arrRef spec0 w) := by
  dsimp only [dat0]

theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = iblk0 V c 2 t := by dsimp only [dat0]
theorem after0_3 (c : Dev nD) (t : Fin cfg0.N) : (dat0 V q c).after 3 t = out0_3 (iblk0 V c 0 t) (iblk0 V c 1 t) (iblk0 V c 2 t) := by dsimp only [dat0]

theorem before0_0 (c : Dev nD) (t : Fin cfg0.N) (d) : (dat0 V q c).before 0 t d = iblk0 V c 0 t :=
  before0_0_of V (dat0 V q c) (A_eq0 V q c 0) (after0_0 V q c) t d
theorem before0_1 (c : Dev nD) (t : Fin cfg0.N) (d) : (dat0 V q c).before 1 t d = iblk0 V c 1 t :=
  before0_1_of V (dat0 V q c) (A_eq0 V q c 1) (after0_1 V q c) t d
theorem before0_2 (c : Dev nD) (t : Fin cfg0.N) (d) : (dat0 V q c).before 2 t d = iblk0 V c 2 t :=
  before0_2_of V (dat0 V q c) (A_eq0 V q c 2) (after0_2 V q c) t d

/-- What the body is called with at point `t`, -/
def bodyPre0 (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d))
    ∗ (∃ d, owns (c : Thread nD τ) (st0_3 t) fullShare ((dat0 V q c).before 3 t d)))

/-- and what it returns. -/
def bodyPost0 (c : Dev nD) (t : Fin cfg0.N) : sProp 𝕄 :=
  iprop((dat0 V q c).Φ t.succ ∗ (dat0 V q c).owesAt () t.succ
    ∗ owns (c : Thread nD τ) (st0_0 t) fullShare ((dat0 V q c).after 0 t)
    ∗ owns (c : Thread nD τ) (st0_1 t) fullShare ((dat0 V q c).after 1 t)
    ∗ owns (c : Thread nD τ) (st0_2 t) fullShare ((dat0 V q c).after 2 t)
    ∗ owns (c : Thread nD τ) (st0_3 t) fullShare ((dat0 V q c).after 3 t))

/-- The body at any point: the inputs' staging buffers hold their blocks, so the body's triple applies; the invariant and the
    core's dues pass through unread. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1, before0_2]
  rw [show (dat0 V q c).Φ t.succ = (dat0 V q c).Φ t.castSucc from rfl,
    show (dat0 V q c).owesAt () t.succ = (dat0 V q c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V q c) (defs₀ (F := F)) Variants.none () Set.univ := fun t => by
  rw [bigSep_W0, bigSep_W0]
  exact sound_body0 V q c t

end Cert.Kernel.Fr

end
-- ==== Proof.KBody1.lean ====
/-
  Pallas call 1 of the program, at the buffer contents `V` the call is entered with: the block each window stages at a grid
  point, what the body leaves in the output window's staging buffer (its one whole-block store of the body's arithmetic of the
  three loaded blocks), the body's Hoare triple on whole staging buffers, and the pipeline's proof data with the body obligation
  at every grid point. Every input window keeps its block in place, so its staging buffer holds the block of the point whether
  or not it was fetched there.
-/
import proofs.«132570_j36283883716940_2_alg».proof.Proof.Gen.Kernel.Launch
import proofs.«132570_j36283883716940_2_alg».proof.Proof.Gen.Kernel.Skeleton
import proofs.«132570_j36283883716940_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S512x128 := Rect.unit (s := S512x128) ![0, 0] S512x128.size inb_S512x128_S512x128_0_0
abbrev r1_1 : Rect S2048x128 := Rect.unit (s := S2048x128) ![0, 0] S2048x128.size inb_S2048x128_S2048x128_0_0
abbrev r1_2 : Rect S2048x128 := Rect.unit (s := S2048x128) ![0, 0] S2048x128.size inb_S2048x128_S2048x128_0_0
abbrev r1_3 : Rect S512x128 := Rect.unit (s := S512x128) ![0, 0] S512x128.size inb_S512x128_S512x128_0_0

/-- The output window's staging buffer after the body: its one store, of the body's arithmetic of the three loaded blocks. -/
def out1_3 (x0 : Vec F S512x128 .bf16) (x1 : Vec F S2048x128 .bf16) (x2 : Vec F S2048x128 .bf16) : Vec F S512x128 .bf16 :=
  View.canon [⟨r1_3, k1_pay1 (View.ld x0 r1_0) (View.ld x1 r1_1) (View.ld x2 r1_2)⟩]

/-- The one store covers the buffer. -/
theorem cover1_3 (p0 : Vec F S512x128 .bf16) (y : S512x128.Idx) :
    ∃ pc ∈ ([⟨r1_3, p0⟩] : List (View.Piece (Elt F) S512x128 .bf16)), y ∈ pc.1.set :=
  View.cover_of_tiled [⟨r1_3, p0⟩] S512x128.size (by rfl) y

set_option maxHeartbeats 1000000 in
/-- The body on whole staging buffers, the inputs' at contents `x0 x1 x2` and the output's at anything, runs to the continuation
    holding the inputs' as they were and the output's at `out1_3 x0 x1 x2`. -/
theorem sound_kernel1 (c : Dev nD) (E : Set ℕ) (i : grid1.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x128 .bf16) (harg6 : arg6.IsWhole)
    (x0 : Vec F S512x128 .bf16) (x1 : Vec F S2048x128 .bf16) (x2 : Vec F S2048x128 .bf16) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d)
        ∗ (iprop(owns (c : Thread nD τ) arg3 fullShare x0 ∗ owns (c : Thread nD τ) arg4 fullShare x1 ∗ owns (c : Thread nD τ) arg5 fullShare x2 ∗ owns (c : Thread nD τ) arg6 fullShare (out1_3 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-- The proof data of the call on core `c`: the arrays as the call finds them; after the body at point `t` each input's buffer
    at its block and the output's at `out1_3` of the input blocks; the scoped rest and the generator register ride along
    untouched; nothing owed. The share of each input array is `q`. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q
  owed _ := 0

variable (q : Fin cfg1.W → PosShare TreeShare)

theorem A_eq1 (c : Dev nD) (w : Fin cfg1.W) : (dat1 V q c).A w = V c (Pipeline.arrRef spec1 w) := by
  dsimp only [dat1]

theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = iblk1 V c 2 t := by dsimp only [dat1]
theorem after1_3 (c : Dev nD) (t : Fin cfg1.N) : (dat1 V q c).after 3 t = out1_3 (iblk1 V c 0 t) (iblk1 V c 1 t) (iblk1 V c 2 t) := by dsimp only [dat1]

theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d
theorem before1_2 (c : Dev nD) (t : Fin cfg1.N) (d) : (dat1 V q c).before 2 t d = iblk1 V c 2 t :=
  before1_2_of V (dat1 V q c) (A_eq1 V q c 2) (after1_2 V q c) t d

/-- What the body is called with at point `t`, -/
def bodyPre1 (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d))
    ∗ (∃ d, owns (c : Thread nD τ) (st1_3 t) fullShare ((dat1 V q c).before 3 t d)))

/-- and what it returns. -/
def bodyPost1 (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t)
    ∗ owns (c : Thread nD τ) (st1_3 t) fullShare ((dat1 V q c).after 3 t))

/-- The body at any point: the inputs' staging buffers hold their blocks, so the body's triple applies; the invariant and the
    core's dues pass through unread. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2]
  rw [show (dat1 V q c).Φ t.succ = (dat1 V q c).Φ t.castSucc from rfl,
    show (dat1 V q c).owesAt () t.succ = (dat1 V q c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V q c) (defs₀ (F := F)) Variants.none () Set.univ := fun t => by
  rw [bigSep_W1, bigSep_W1]
  exact sound_body1 V q c t

end Cert.Kernel.Fr

end
-- ==== Proof.KBody2.lean ====
/-
  Pallas call 2 of the program, at the buffer contents `V` the call is entered with: the block each window stages at a grid
  point, what the body leaves in the output window's staging buffer (its one whole-block store of the body's arithmetic of the
  three loaded blocks), the body's Hoare triple on whole staging buffers, and the pipeline's proof data with the body obligation
  at every grid point. Every input window keeps its block in place, so its staging buffer holds the block of the point whether
  or not it was fetched there.
-/
import proofs.«132570_j36283883716940_2_alg».proof.Proof.Gen.Kernel.Launch
import proofs.«132570_j36283883716940_2_alg».proof.Proof.Gen.Kernel.Skeleton
import proofs.«132570_j36283883716940_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1024x1024 := Rect.unit (s := S1024x1024) ![0, 0] S1024x1024.size inb_S1024x1024_S1024x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S1024x1024 := Rect.unit (s := S1024x1024) ![0, 0] S1024x1024.size inb_S1024x1024_S1024x1024_0_0

/-- The output window's staging buffer after the body: its one store, of the body's arithmetic of the three loaded blocks. -/
def out2_3 (x0 : Vec F S1024x1024 .bf16) (x1 : Vec F S1024x1024 .bf16) (x2 : Vec F S1x1024 .f32) : Vec F S1024x1024 .f32 :=
  View.canon [⟨r2_3, k2_pay1 (View.ld x0 r2_0) (View.ld x1 r2_1) (View.ld x2 r2_2)⟩]

/-- The one store covers the buffer. -/
theorem cover2_3 (p0 : Vec F S1024x1024 .f32) (y : S1024x1024.Idx) :
    ∃ pc ∈ ([⟨r2_3, p0⟩] : List (View.Piece (Elt F) S1024x1024 .f32)), y ∈ pc.1.set :=
  View.cover_of_tiled [⟨r2_3, p0⟩] S1024x1024.size (by rfl) y

set_option maxHeartbeats 1000000 in
/-- The body on whole staging buffers, the inputs' at contents `x0 x1 x2` and the output's at anything, runs to the continuation
    holding the inputs' as they were and the output's at `out2_3 x0 x1 x2`. -/
theorem sound_kernel2 (c : Dev nD) (E : Set ℕ) (i : grid2.Coords) (arg1 : Memref sig .tc .vmem S1024x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1024x1024 .f32) (harg4 : arg4.IsWhole)
    (x0 : Vec F S1024x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__out_kernel i arg1 harg1 arg2 harg2 arg3 harg3 arg4 harg4) K := by
  simp only [cc2__out_kernel_eq_skeleton]; unfold cc2__out_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover2_3 _)

/-- The proof data of the call on core `c`: the arrays as the call finds them; after the body at point `t` each input's buffer
    at its block and the output's at `out2_3` of the input blocks; the scoped rest and the generator register ride along
    untouched; nothing owed. The share of each input array is `q`. -/
def dat2 (q : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q := q
  owed _ := 0

variable (q : Fin cfg2.W → PosShare TreeShare)

theorem A_eq2 (c : Dev nD) (w : Fin cfg2.W) : (dat2 V q c).A w = V c (Pipeline.arrRef spec2 w) := by
  dsimp only [dat2]

theorem after2_0 (c : Dev nD) (t : Fin cfg2.N) : (dat2 V q c).after 0 t = iblk2 V c 0 t := by dsimp only [dat2]
theorem after2_1 (c : Dev nD) (t : Fin cfg2.N) : (dat2 V q c).after 1 t = iblk2 V c 1 t := by dsimp only [dat2]
theorem after2_2 (c : Dev nD) (t : Fin cfg2.N) : (dat2 V q c).after 2 t = iblk2 V c 2 t := by dsimp only [dat2]
theorem after2_3 (c : Dev nD) (t : Fin cfg2.N) : (dat2 V q c).after 3 t = out2_3 (iblk2 V c 0 t) (iblk2 V c 1 t) (iblk2 V c 2 t) := by dsimp only [dat2]

theorem before2_0 (c : Dev nD) (t : Fin cfg2.N) (d) : (dat2 V q c).before 0 t d = iblk2 V c 0 t :=
  before2_0_of V (dat2 V q c) (A_eq2 V q c 0) (after2_0 V q c) t d
theorem before2_1 (c : Dev nD) (t : Fin cfg2.N) (d) : (dat2 V q c).before 1 t d = iblk2 V c 1 t :=
  before2_1_of V (dat2 V q c) (A_eq2 V q c 1) (after2_1 V q c) t d
theorem before2_2 (c : Dev nD) (t : Fin cfg2.N) (d) : (dat2 V q c).before 2 t d = iblk2 V c 2 t :=
  before2_2_of V (dat2 V q c) (A_eq2 V q c 2) (after2_2 V q c) t d

/-- What the body is called with at point `t`, -/
def bodyPre2 (c : Dev nD) (t : Fin cfg2.N) : sProp 𝕄 :=
  iprop((dat2 V q c).Φ t.castSucc ∗ (dat2 V q c).owesAt () t.castSucc
    ∗ (∃ d, owns (c : Thread nD τ) (st2_0 t) fullShare ((dat2 V q c).before 0 t d))
    ∗ (∃ d, owns (c : Thread nD τ) (st2_1 t) fullShare ((dat2 V q c).before 1 t d))
    ∗ (∃ d, owns (c : Thread nD τ) (st2_2 t) fullShare ((dat2 V q c).before 2 t d))
    ∗ (∃ d, owns (c : Thread nD τ) (st2_3 t) fullShare ((dat2 V q c).before 3 t d)))

/-- and what it returns. -/
def bodyPost2 (c : Dev nD) (t : Fin cfg2.N) : sProp 𝕄 :=
  iprop((dat2 V q c).Φ t.succ ∗ (dat2 V q c).owesAt () t.succ
    ∗ owns (c : Thread nD τ) (st2_0 t) fullShare ((dat2 V q c).after 0 t)
    ∗ owns (c : Thread nD τ) (st2_1 t) fullShare ((dat2 V q c).after 1 t)
    ∗ owns (c : Thread nD τ) (st2_2 t) fullShare ((dat2 V q c).after 2 t)
    ∗ owns (c : Thread nD τ) (st2_3 t) fullShare ((dat2 V q c).after 3 t))

/-- The body at any point: the inputs' staging buffers hold their blocks, so the body's triple applies; the invariant and the
    core's dues pass through unread. -/
theorem sound_body2 (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1, before2_2]
  rw [show (dat2 V q c).Φ t.succ = (dat2 V q c).Φ t.castSucc from rfl,
    show (dat2 V q c).owesAt () t.succ = (dat2 V q c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V q c) (defs₀ (F := F)) Variants.none () Set.univ := fun t => by
  rw [bigSep_W2, bigSep_W2]
  exact sound_body2 V q c t

end Cert.Kernel.Fr

end
-- ==== Proof.KRun.lean ====
/-
  The run of the whole program as five segments — the host operations before the calls, the three Pallas calls, the host
  reshape after them — with the contents of every unscoped buffer named at each boundary: the launch memory, then the host
  operations' results, then after each call its output array at what the call's write-backs leave and every other buffer
  as before. Every weakly fair execution terminates, faults nowhere, and ends with every unscoped buffer at the last
  boundary's contents; the five argument arrays are never written, so they end as launched.

  The attention call hands ONE array (the projected features) to its three input windows: the array's full share is dealt
  among them (left half; left and right halves of the right half) at the call's entry and joined again at its exit.
-/
import proofs.«132570_j36283883716940_2_alg».proof.Proof.KBody0
import proofs.«132570_j36283883716940_2_alg».proof.Proof.KBody1
import proofs.«132570_j36283883716940_2_alg».proof.Proof.KBody2
import proofs.«132570_j36283883716940_2_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every input array held whole. -/
abbrev qfull : Fin 4 → PosShare TreeShare := fun _ => fullShare
/-- The attention call's three input windows read one array: its full share dealt among them. -/
def q1 : Fin cfg1.W → PosShare TreeShare := fun w => match w with
  | ⟨0, _⟩ => fullShare.left
  | ⟨1, _⟩ => fullShare.right.left
  | ⟨2, _⟩ => fullShare.right.right
  | _ => fullShare

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) qfull c).arrAt w cfg0.N
theorem W2_arr (c : Dev nD) (w : Fin cfg0.W) :
    W2 m ρ c (Proc.devRef .tc (Pipeline.arrRef spec0 w)) = (dat0 (V1 m ρ) qfull c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) qfull c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the attention call: its output array at what its write-backs leave, every other buffer as before. -/
def W3 (c : Dev nD) : Valuation τ sig (Elt F) :=
  Function.update (W2 m ρ c) (Proc.devRef .tc main_v7) ((dat1 (V2 m ρ) q1 c).arrAt 3 cfg1.N)
theorem W3_v7 (c : Dev nD) : W3 m ρ c (Proc.devRef .tc main_v7) = (dat1 (V2 m ρ) q1 c).arrAt 3 cfg1.N := by
  unfold W3; exact Function.update_self ..
theorem W3_of_ne (c : Dev nD) (b : Ref sig .tc) (hb : b ≠ main_v7) :
    W3 m ρ c (Proc.devRef .tc b) = W2 m ρ c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m ρ c b

def W4 (c : Dev nD) : Valuation τ sig (Elt F) :=
  Pipeline.withArrays spec2 c (W3 m ρ c) fun w => (dat2 (V3 m ρ) qfull c).arrAt w cfg2.N
theorem W4_arr (c : Dev nD) (w : Fin cfg2.W) :
    W4 m ρ c (Proc.devRef .tc (Pipeline.arrRef spec2 w)) = (dat2 (V3 m ρ) qfull c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) qfull c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps3 (W4 m ρ c)

/-! ### No segment writes an argument array -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps3 _ hostOps3_writes (r := main_arg0) (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps3 _ hostOps3_writes (r := main_arg1) (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps3 _ hostOps3_writes (r := main_arg2) (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps3 _ hostOps3_writes (r := main_arg3) (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps3 _ hostOps3_writes (r := main_arg4) (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

/-! ## The proof data family and the thread state -/

abbrev adm : (p : Fin 3) → (pcfgs (F := F) p).Adm := fun p => (cfgs p).toPCfg_adm
/-- Every call's proof data, each at its entry contents. -/
def pdats : (p : Fin 3) → (c : Dev nD) → Dat τ (Elt F) Unit ℕ (UR sig nD τ) ℕ (Pipeline.pin (pcfgs (F := F)) adm p) c
  | ⟨0, _⟩ => fun c => dat0 (V1 m ρ) qfull c
  | ⟨1, _⟩ => fun c => dat1 (V2 m ρ) q1 c
  | ⟨2, _⟩ => fun c => dat2 (V3 m ρ) qfull c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ### The attention call's arrays: one array behind three input windows -/

/-- The buffers behind the attention call's four windows are two: the projected features and the attention output. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v6) ↦{fullShare} V main_v6) ∗ (((c : Thread nD τ).loc main_v7) ↦{fullShare} V main_v7)) := by
  unfold Pipeline.arrBufs
  rw [show Finset.univ.image (Pipeline.arrRef spec1) = {main_v6, main_v7} from by decide, bigSep_insert (by decide), bigSep_singleton]
  rfl

/-- The call's arrays at contents `G`: the three input windows hold the projected features at the three parts of its share,
    the output window holds its array whole. -/
theorem arrays1_eq (V' : (c : Dev nD) → (b : Ref sig .tc) → Buf (Elt F) ((c : Thread nD τ).loc b)) (c : Dev nD)
    (G : (w : Fin cfg1.W) → Buf (Elt F) ((cfg1.win w).arr.view.loc (c : Thread nD τ))) :
    ((dat1 V' q1 c).arrays G : sProp 𝕄)
      = iprop((((c : Thread nD τ).loc main_v6) ↦{fullShare.left} G 0) ∗ (((c : Thread nD τ).loc main_v6) ↦{fullShare.right.left} G 1)
          ∗ (((c : Thread nD τ).loc main_v6) ↦{fullShare.right.right} G 2) ∗ (((c : Thread nD τ).loc main_v7) ↦{fullShare} G 3)) := by
  unfold Dat.arrays
  rw [bigSep_W1, (arr_whole1 0).set_eq_univ, (arr_whole1 3).set_eq_univ]
  rfl

/-- ENTRY of the attention call: the unscoped buffers at the contents before it are its arrays at the entry contents — the
    projected features' whole share dealt among the three input windows — and the unscoped rest. -/
theorem entry1 (c : Dev nD) :
    (StableHlo.held (c : Thread nD τ) (Pipeline.ucRefs τ sig) (W2 m ρ c) : sProp 𝕄)
      ⊢ iprop((dat1 (V2 m ρ) q1 c).arrays ((dat1 (V2 m ρ) q1 c).arrAt · 0)
          ∗ Pipeline.unscopedRest (Ix := Unit) (Name := ℕ) (U := UR sig nD τ) (Lvl := ℕ) spec1 c (V2 m ρ c)) := by
  rw [← Pipeline.unscopedBufs_held c (W2 m ρ c),
    Pipeline.unscopedBufs_split₀ (Ix := Unit) (Name := ℕ) (U := UR sig nD τ) (Lvl := ℕ) (Pipeline.pin (pcfgs (F := F)) adm) 1 winFacts₀1.arr_unscoped c (V2 m ρ c)]
  show iprop((Pipeline.arrBufs (Ix := Unit) (Name := ℕ) (U := UR sig nD τ) (Lvl := ℕ) spec1 c (V2 m ρ c) : sProp 𝕄)
      ∗ Pipeline.unscopedRest (Ix := Unit) (Name := ℕ) (U := UR sig nD τ) (Lvl := ℕ) spec1 c (V2 m ρ c)) ⊢ _
  rw [arrBufs1_eq, arrays1_eq]
  iintro ⟨⟨H6, H7⟩, Hrest⟩
  ihave H6 := (pointsTo_share (PosShare.mem_left_op_right fullShare)).1 $$ H6
  icases H6 with ⟨H6l, H6r⟩
  ihave H6r := (pointsTo_share (PosShare.mem_left_op_right fullShare.right)).1 $$ H6r
  icases H6r with ⟨H6rl, H6rr⟩
  isplitr [Hrest]
  · isplitl [H6l]; · iexact H6l
    isplitl [H6rl]; · iexact H6rl
    isplitl [H6rr]; · iexact H6rr
    iexact H7
  iexact Hrest

/-- EXIT of the attention call: its arrays at what the write-backs leave — the three shares of the projected features, which
    no write-back touches, joined again; the output array at its final contents — and the unscoped rest are the unscoped
    buffers at the contents after the call. -/
theorem exit1 (c : Dev nD) :
    iprop((dat1 (V2 m ρ) q1 c).arrays ((dat1 (V2 m ρ) q1 c).arrAt · cfg1.N)
        ∗ Pipeline.unscopedRest (Ix := Unit) (Name := ℕ) (U := UR sig nD τ) (Lvl := ℕ) spec1 c (V2 m ρ c))
      ⊢ (StableHlo.held (c : Thread nD τ) (Pipeline.ucRefs τ sig) (W3 m ρ c) : sProp 𝕄) := by
  rw [← Pipeline.unscopedBufs_held c (W3 m ρ c),
    Pipeline.unscopedBufs_split₀ (Ix := Unit) (Name := ℕ) (U := UR sig nD τ) (Lvl := ℕ) (Pipeline.pin (pcfgs (F := F)) adm) 1 winFacts₀1.arr_unscoped c (V3 m ρ c)]
  show _ ⊢ iprop((Pipeline.arrBufs (Ix := Unit) (Name := ℕ) (U := UR sig nD τ) (Lvl := ℕ) spec1 c (V3 m ρ c) : sProp 𝕄)
      ∗ Pipeline.unscopedRest (Ix := Unit) (Name := ℕ) (U := UR sig nD τ) (Lvl := ℕ) spec1 c (V3 m ρ c))
  rw [arrBufs1_eq, arrays1_eq]
  have h0 : (dat1 (V2 m ρ) q1 c).arrAt 0 cfg1.N = V2 m ρ c main_v6 := ((dat1 (V2 m ρ) q1 c).arrAt_in 0 rfl _).trans (A_eq1 (V2 m ρ) q1 c 0)
  have h1 : (dat1 (V2 m ρ) q1 c).arrAt 1 cfg1.N = V2 m ρ c main_v6 := ((dat1 (V2 m ρ) q1 c).arrAt_in 1 rfl _).trans (A_eq1 (V2 m ρ) q1 c 1)
  have h2 : (dat1 (V2 m ρ) q1 c).arrAt 2 cfg1.N = V2 m ρ c main_v6 := ((dat1 (V2 m ρ) q1 c).arrAt_in 2 rfl _).trans (A_eq1 (V2 m ρ) q1 c 2)
  have h6 : V3 m ρ c main_v6 = V2 m ρ c main_v6 := W3_of_ne m ρ c main_v6 (by decide)
  have h7 : V3 m ρ c main_v7 = (dat1 (V2 m ρ) q1 c).arrAt 3 cfg1.N := W3_v7 m ρ c
  have hrest : (Pipeline.unscopedRest (Ix := Unit) (Name := ℕ) (U := UR sig nD τ) (Lvl := ℕ) spec1 c (V3 m ρ c) : sProp 𝕄)
      = Pipeline.unscopedRest (Ix := Unit) (Name := ℕ) (U := UR sig nD τ) (Lvl := ℕ) spec1 c (V2 m ρ c) := by
    unfold Pipeline.unscopedRest
    refine bigSep_congr fun b hb => ?_
    rw [show V3 m ρ c b = V2 m ρ c b from W3_of_ne m ρ c b fun e =>
      (Finset.mem_sdiff.mp hb).2 (Finset.mem_image.mpr ⟨3, Finset.mem_univ _, e.symm⟩)]
  rw [h0, h1, h2, h6, h7, hrest]
  iintro ⟨⟨H6l, H6rl, H6rr, H7⟩, Hrest⟩
  ihave H6r := (pointsTo_share (PosShare.mem_left_op_right fullShare.right)).2 $$ [H6rl H6rr]
  · isplitl [H6rl] <;> iassumption
  ihave H6 := (pointsTo_share (PosShare.mem_left_op_right fullShare)).2 $$ [H6l H6r]
  · isplitl [H6l] <;> iassumption
  isplitr [Hrest]
  · isplitl [H6]; · iexact H6
    iexact H7
  iexact Hrest

/-! ## The calls as segments -/

set_option backward.isDefEq.respectTransparency.types false in
/-- Pallas call 0 as a segment of the run: entered with every unscoped buffer at the contents before it, left with them at the
    contents after it. Its windows' arrays are split out of the unscoped buffers and put back at what the write-backs leave;
    the generator register passes through the invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) qfull c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call as a segment. Its three input windows read the projected-features array: at entry the array's whole
    share is dealt among them, at exit the three shares are joined again; its output array is put back at what the
    write-backs leave. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) q1 c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    iintro ⟨⟨Hub, Hp, HO⟩, -, -⟩
    ihave H := (entry1 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m ρ c)
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Pallas call 2 as a segment of the run: entered with every unscoped buffer at the contents before it, left with them at the
    contents after it. Its windows' arrays are split out of the unscoped buffers and put back at what the write-backs leave;
    the generator register passes through the invariant; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) qfull c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting, and
    every final state holds each unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_main m ρ)

end Cert.Kernel.Fr

end
-- ==== Proof.KIBody0.lean ====
/-
  Pallas call 0 of the program, at the buffer contents `V` the call is entered with: the block each window stages at a grid
  point, what the body leaves in the output window's staging buffer (its one whole-block store of the body's arithmetic of the
  three loaded blocks), the body's Hoare triple on whole staging buffers, and the pipeline's proof data with the body obligation
  at every grid point. Every input window keeps its block in place, so its staging buffer holds the block of the point whether
  or not it was fetched there.
-/
import proofs.«132570_j36283883716940_2_alg».proof.Proof.Gen.KernelIdeal.Launch
import proofs.«132570_j36283883716940_2_alg».proof.Proof.Gen.KernelIdeal.Skeleton
import proofs.«132570_j36283883716940_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

/-- The output window's staging buffer after the body: its one store, of the body's arithmetic of the three loaded blocks. -/
def out0_3 (x0 : Vec F S512x1024 .bf16) (x1 : Vec F S1024x3072 .bf16) (x2 : Vec F S1x3072 .f32) : Vec F S512x3072 .bf16 :=
  View.canon [⟨r0_3, k0_pay1 (View.ld x0 r0_0) (View.ld x1 r0_1) (View.ld x2 r0_2)⟩]

/-- The one store covers the buffer. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

set_option maxHeartbeats 1000000 in
/-- The body on whole staging buffers, the inputs' at contents `x0 x1 x2` and the output's at anything, runs to the continuation
    holding the inputs' as they were and the output's at `out0_3 x0 x1 x2`. -/
theorem sound_kernel0 (c : Dev nD) (E : Set ℕ) (i : grid0.Coords) (arg1 : Memref sig .tc .vmem S512x1024 .bf16) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S512x3072 .bf16) (harg4 : arg4.IsWhole)
    (x0 : Vec F S512x1024 .bf16) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-- The proof data of the call on core `c`: the arrays as the call finds them; after the body at point `t` each input's buffer
    at its block and the output's at `out0_3` of the input blocks; the scoped rest and the generator register ride along
    untouched; nothing owed. The share of each input array is `q`. -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q := q
  owed _ := 0

variable (q : Fin cfg0.W → PosShare TreeShare)

theorem A_eq0 (c : Dev nD) (w : Fin cfg0.W) : (dat0 V q c).A w = V c (Pipeline.arrRef spec0 w) := by
  dsimp only [dat0]

theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = iblk0 V c 2 t := by dsimp only [dat0]
theorem after0_3 (c : Dev nD) (t : Fin cfg0.N) : (dat0 V q c).after 3 t = out0_3 (iblk0 V c 0 t) (iblk0 V c 1 t) (iblk0 V c 2 t) := by dsimp only [dat0]

theorem before0_0 (c : Dev nD) (t : Fin cfg0.N) (d) : (dat0 V q c).before 0 t d = iblk0 V c 0 t :=
  before0_0_of V (dat0 V q c) (A_eq0 V q c 0) (after0_0 V q c) t d
theorem before0_1 (c : Dev nD) (t : Fin cfg0.N) (d) : (dat0 V q c).before 1 t d = iblk0 V c 1 t :=
  before0_1_of V (dat0 V q c) (A_eq0 V q c 1) (after0_1 V q c) t d
theorem before0_2 (c : Dev nD) (t : Fin cfg0.N) (d) : (dat0 V q c).before 2 t d = iblk0 V c 2 t :=
  before0_2_of V (dat0 V q c) (A_eq0 V q c 2) (after0_2 V q c) t d

/-- What the body is called with at point `t`, -/
def bodyPre0 (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d))
    ∗ (∃ d, owns (c : Thread nD τ) (st0_3 t) fullShare ((dat0 V q c).before 3 t d)))

/-- and what it returns. -/
def bodyPost0 (c : Dev nD) (t : Fin cfg0.N) : sProp 𝕄 :=
  iprop((dat0 V q c).Φ t.succ ∗ (dat0 V q c).owesAt () t.succ
    ∗ owns (c : Thread nD τ) (st0_0 t) fullShare ((dat0 V q c).after 0 t)
    ∗ owns (c : Thread nD τ) (st0_1 t) fullShare ((dat0 V q c).after 1 t)
    ∗ owns (c : Thread nD τ) (st0_2 t) fullShare ((dat0 V q c).after 2 t)
    ∗ owns (c : Thread nD τ) (st0_3 t) fullShare ((dat0 V q c).after 3 t))

/-- The body at any point: the inputs' staging buffers hold their blocks, so the body's triple applies; the invariant and the
    core's dues pass through unread. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1, before0_2]
  rw [show (dat0 V q c).Φ t.succ = (dat0 V q c).Φ t.castSucc from rfl,
    show (dat0 V q c).owesAt () t.succ = (dat0 V q c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V q c) (defs₀ (F := F)) Variants.none () Set.univ := fun t => by
  rw [bigSep_W0, bigSep_W0]
  exact sound_body0 V q c t

end Cert.KernelIdeal.Fr

end
-- ==== Proof.KIBody1.lean ====
/-
  Pallas call 1 of the program, at the buffer contents `V` the call is entered with: the block each window stages at a grid
  point, what the body leaves in the output window's staging buffer (its one whole-block store of the body's arithmetic of the
  three loaded blocks), the body's Hoare triple on whole staging buffers, and the pipeline's proof data with the body obligation
  at every grid point. Every input window keeps its block in place, so its staging buffer holds the block of the point whether
  or not it was fetched there.
-/
import proofs.«132570_j36283883716940_2_alg».proof.Proof.Gen.KernelIdeal.Launch
import proofs.«132570_j36283883716940_2_alg».proof.Proof.Gen.KernelIdeal.Skeleton
import proofs.«132570_j36283883716940_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S512x128 := Rect.unit (s := S512x128) ![0, 0] S512x128.size inb_S512x128_S512x128_0_0
abbrev r1_1 : Rect S2048x128 := Rect.unit (s := S2048x128) ![0, 0] S2048x128.size inb_S2048x128_S2048x128_0_0
abbrev r1_2 : Rect S2048x128 := Rect.unit (s := S2048x128) ![0, 0] S2048x128.size inb_S2048x128_S2048x128_0_0
abbrev r1_3 : Rect S512x128 := Rect.unit (s := S512x128) ![0, 0] S512x128.size inb_S512x128_S512x128_0_0

/-- The output window's staging buffer after the body: its one store, of the body's arithmetic of the three loaded blocks. -/
def out1_3 (x0 : Vec F S512x128 .bf16) (x1 : Vec F S2048x128 .bf16) (x2 : Vec F S2048x128 .bf16) : Vec F S512x128 .bf16 :=
  View.canon [⟨r1_3, k1_pay1 (View.ld x0 r1_0) (View.ld x1 r1_1) (View.ld x2 r1_2)⟩]

/-- The one store covers the buffer. -/
theorem cover1_3 (p0 : Vec F S512x128 .bf16) (y : S512x128.Idx) :
    ∃ pc ∈ ([⟨r1_3, p0⟩] : List (View.Piece (Elt F) S512x128 .bf16)), y ∈ pc.1.set :=
  View.cover_of_tiled [⟨r1_3, p0⟩] S512x128.size (by rfl) y

set_option maxHeartbeats 1000000 in
/-- The body on whole staging buffers, the inputs' at contents `x0 x1 x2` and the output's at anything, runs to the continuation
    holding the inputs' as they were and the output's at `out1_3 x0 x1 x2`. -/
theorem sound_kernel1 (c : Dev nD) (E : Set ℕ) (i : grid1.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x128 .bf16) (harg6 : arg6.IsWhole)
    (x0 : Vec F S512x128 .bf16) (x1 : Vec F S2048x128 .bf16) (x2 : Vec F S2048x128 .bf16) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d)
        ∗ (iprop(owns (c : Thread nD τ) arg3 fullShare x0 ∗ owns (c : Thread nD τ) arg4 fullShare x1 ∗ owns (c : Thread nD τ) arg5 fullShare x2 ∗ owns (c : Thread nD τ) arg6 fullShare (out1_3 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-- The proof data of the call on core `c`: the arrays as the call finds them; after the body at point `t` each input's buffer
    at its block and the output's at `out1_3` of the input blocks; the scoped rest and the generator register ride along
    untouched; nothing owed. The share of each input array is `q`. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q := q
  owed _ := 0

variable (q : Fin cfg1.W → PosShare TreeShare)

theorem A_eq1 (c : Dev nD) (w : Fin cfg1.W) : (dat1 V q c).A w = V c (Pipeline.arrRef spec1 w) := by
  dsimp only [dat1]

theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = iblk1 V c 2 t := by dsimp only [dat1]
theorem after1_3 (c : Dev nD) (t : Fin cfg1.N) : (dat1 V q c).after 3 t = out1_3 (iblk1 V c 0 t) (iblk1 V c 1 t) (iblk1 V c 2 t) := by dsimp only [dat1]

theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d
theorem before1_2 (c : Dev nD) (t : Fin cfg1.N) (d) : (dat1 V q c).before 2 t d = iblk1 V c 2 t :=
  before1_2_of V (dat1 V q c) (A_eq1 V q c 2) (after1_2 V q c) t d

/-- What the body is called with at point `t`, -/
def bodyPre1 (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d))
    ∗ (∃ d, owns (c : Thread nD τ) (st1_3 t) fullShare ((dat1 V q c).before 3 t d)))

/-- and what it returns. -/
def bodyPost1 (c : Dev nD) (t : Fin cfg1.N) : sProp 𝕄 :=
  iprop((dat1 V q c).Φ t.succ ∗ (dat1 V q c).owesAt () t.succ
    ∗ owns (c : Thread nD τ) (st1_0 t) fullShare ((dat1 V q c).after 0 t)
    ∗ owns (c : Thread nD τ) (st1_1 t) fullShare ((dat1 V q c).after 1 t)
    ∗ owns (c : Thread nD τ) (st1_2 t) fullShare ((dat1 V q c).after 2 t)
    ∗ owns (c : Thread nD τ) (st1_3 t) fullShare ((dat1 V q c).after 3 t))

/-- The body at any point: the inputs' staging buffers hold their blocks, so the body's triple applies; the invariant and the
    core's dues pass through unread. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2]
  rw [show (dat1 V q c).Φ t.succ = (dat1 V q c).Φ t.castSucc from rfl,
    show (dat1 V q c).owesAt () t.succ = (dat1 V q c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V q c) (defs₀ (F := F)) Variants.none () Set.univ := fun t => by
  rw [bigSep_W1, bigSep_W1]
  exact sound_body1 V q c t

end Cert.KernelIdeal.Fr

end
-- ==== Proof.KIBody2.lean ====
/-
  Pallas call 2 of the program, at the buffer contents `V` the call is entered with: the block each window stages at a grid
  point, what the body leaves in the output window's staging buffer (its one whole-block store of the body's arithmetic of the
  three loaded blocks), the body's Hoare triple on whole staging buffers, and the pipeline's proof data with the body obligation
  at every grid point. Every input window keeps its block in place, so its staging buffer holds the block of the point whether
  or not it was fetched there.
-/
import proofs.«132570_j36283883716940_2_alg».proof.Proof.Gen.KernelIdeal.Launch
import proofs.«132570_j36283883716940_2_alg».proof.Proof.Gen.KernelIdeal.Skeleton
import proofs.«132570_j36283883716940_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1024x1024 := Rect.unit (s := S1024x1024) ![0, 0] S1024x1024.size inb_S1024x1024_S1024x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S1024x1024 := Rect.unit (s := S1024x1024) ![0, 0] S1024x1024.size inb_S1024x1024_S1024x1024_0_0

/-- The output window's staging buffer after the body: its one store, of the body's arithmetic of the three loaded blocks. -/
def out2_3 (x0 : Vec F S1024x1024 .bf16) (x1 : Vec F S1024x1024 .bf16) (x2 : Vec F S1x1024 .f32) : Vec F S1024x1024 .f32 :=
  View.canon [⟨r2_3, k2_pay1 (View.ld x0 r2_0) (View.ld x1 r2_1) (View.ld x2 r2_2)⟩]

/-- The one store covers the buffer. -/
theorem cover2_3 (p0 : Vec F S1024x1024 .f32) (y : S1024x1024.Idx) :
    ∃ pc ∈ ([⟨r2_3, p0⟩] : List (View.Piece (Elt F) S1024x1024 .f32)), y ∈ pc.1.set :=
  View.cover_of_tiled [⟨r2_3, p0⟩] S1024x1024.size (by rfl) y

set_option maxHeartbeats 1000000 in
/-- The body on whole staging buffers, the inputs' at contents `x0 x1 x2` and the output's at anything, runs to the continuation
    holding the inputs' as they were and the output's at `out2_3 x0 x1 x2`. -/
theorem sound_kernel2 (c : Dev nD) (E : Set ℕ) (i : grid2.Coords) (arg1 : Memref sig .tc .vmem S1024x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1024x1024 .f32) (harg4 : arg4.IsWhole)
    (x0 : Vec F S1024x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__out_kernel i arg1 harg1 arg2 harg2 arg3 harg3 arg4 harg4) K := by
  simp only [cc2__out_kernel_eq_skeleton]; unfold cc2__out_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover2_3 _)

/-- The proof data of the call on core `c`: the arrays as the call finds them; after the body at point `t` each input's buffer
    at its block and the output's at `out2_3` of the input blocks; the scoped rest and the generator register ride along
    untouched; nothing owed. The share of each input array is `q`. -/
def dat2 (q : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q := q
  owed _ := 0

variable (q : Fin cfg2.W → PosShare TreeShare)

theorem A_eq2 (c : Dev nD) (w : Fin cfg2.W) : (dat2 V q c).A w = V c (Pipeline.arrRef spec2 w) := by
  dsimp only [dat2]

theorem after2_0 (c : Dev nD) (t : Fin cfg2.N) : (dat2 V q c).after 0 t = iblk2 V c 0 t := by dsimp only [dat2]
theorem after2_1 (c : Dev nD) (t : Fin cfg2.N) : (dat2 V q c).after 1 t = iblk2 V c 1 t := by dsimp only [dat2]
theorem after2_2 (c : Dev nD) (t : Fin cfg2.N) : (dat2 V q c).after 2 t = iblk2 V c 2 t := by dsimp only [dat2]
theorem after2_3 (c : Dev nD) (t : Fin cfg2.N) : (dat2 V q c).after 3 t = out2_3 (iblk2 V c 0 t) (iblk2 V c 1 t) (iblk2 V c 2 t) := by dsimp only [dat2]

theorem before2_0 (c : Dev nD) (t : Fin cfg2.N) (d) : (dat2 V q c).before 0 t d = iblk2 V c 0 t :=
  before2_0_of V (dat2 V q c) (A_eq2 V q c 0) (after2_0 V q c) t d
theorem before2_1 (c : Dev nD) (t : Fin cfg2.N) (d) : (dat2 V q c).before 1 t d = iblk2 V c 1 t :=
  before2_1_of V (dat2 V q c) (A_eq2 V q c 1) (after2_1 V q c) t d
theorem before2_2 (c : Dev nD) (t : Fin cfg2.N) (d) : (dat2 V q c).before 2 t d = iblk2 V c 2 t :=
  before2_2_of V (dat2 V q c) (A_eq2 V q c 2) (after2_2 V q c) t d

/-- What the body is called with at point `t`, -/
def bodyPre2 (c : Dev nD) (t : Fin cfg2.N) : sProp 𝕄 :=
  iprop((dat2 V q c).Φ t.castSucc ∗ (dat2 V q c).owesAt () t.castSucc
    ∗ (∃ d, owns (c : Thread nD τ) (st2_0 t) fullShare ((dat2 V q c).before 0 t d))
    ∗ (∃ d, owns (c : Thread nD τ) (st2_1 t) fullShare ((dat2 V q c).before 1 t d))
    ∗ (∃ d, owns (c : Thread nD τ) (st2_2 t) fullShare ((dat2 V q c).before 2 t d))
    ∗ (∃ d, owns (c : Thread nD τ) (st2_3 t) fullShare ((dat2 V q c).before 3 t d)))

/-- and what it returns. -/
def bodyPost2 (c : Dev nD) (t : Fin cfg2.N) : sProp 𝕄 :=
  iprop((dat2 V q c).Φ t.succ ∗ (dat2 V q c).owesAt () t.succ
    ∗ owns (c : Thread nD τ) (st2_0 t) fullShare ((dat2 V q c).after 0 t)
    ∗ owns (c : Thread nD τ) (st2_1 t) fullShare ((dat2 V q c).after 1 t)
    ∗ owns (c : Thread nD τ) (st2_2 t) fullShare ((dat2 V q c).after 2 t)
    ∗ owns (c : Thread nD τ) (st2_3 t) fullShare ((dat2 V q c).after 3 t))

/-- The body at any point: the inputs' staging buffers hold their blocks, so the body's triple applies; the invariant and the
    core's dues pass through unread. -/
theorem sound_body2 (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1, before2_2]
  rw [show (dat2 V q c).Φ t.succ = (dat2 V q c).Φ t.castSucc from rfl,
    show (dat2 V q c).owesAt () t.succ = (dat2 V q c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V q c) (defs₀ (F := F)) Variants.none () Set.univ := fun t => by
  rw [bigSep_W2, bigSep_W2]
  exact sound_body2 V q c t

end Cert.KernelIdeal.Fr

end
-- ==== Proof.KIRun.lean ====
/-
  The run of the whole program as five segments — the host operations before the calls, the three Pallas calls, the host
  reshape after them — with the contents of every unscoped buffer named at each boundary: the launch memory, then the host
  operations' results, then after each call its output array at what the call's write-backs leave and every other buffer
  as before. Every weakly fair execution terminates, faults nowhere, and ends with every unscoped buffer at the last
  boundary's contents; the five argument arrays are never written, so they end as launched.

  The attention call hands ONE array (the projected features) to its three input windows: the array's full share is dealt
  among them (left half; left and right halves of the right half) at the call's entry and joined again at its exit.
-/
import proofs.«132570_j36283883716940_2_alg».proof.Proof.KIBody0
import proofs.«132570_j36283883716940_2_alg».proof.Proof.KIBody1
import proofs.«132570_j36283883716940_2_alg».proof.Proof.KIBody2
import proofs.«132570_j36283883716940_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every input array held whole. -/
abbrev qfull : Fin 4 → PosShare TreeShare := fun _ => fullShare
/-- The attention call's three input windows read one array: its full share dealt among them. -/
def q1 : Fin cfg1.W → PosShare TreeShare := fun w => match w with
  | ⟨0, _⟩ => fullShare.left
  | ⟨1, _⟩ => fullShare.right.left
  | ⟨2, _⟩ => fullShare.right.right
  | _ => fullShare

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) qfull c).arrAt w cfg0.N
theorem W2_arr (c : Dev nD) (w : Fin cfg0.W) :
    W2 m ρ c (Proc.devRef .tc (Pipeline.arrRef spec0 w)) = (dat0 (V1 m ρ) qfull c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) qfull c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the attention call: its output array at what its write-backs leave, every other buffer as before. -/
def W3 (c : Dev nD) : Valuation τ sig (Elt F) :=
  Function.update (W2 m ρ c) (Proc.devRef .tc main_v7) ((dat1 (V2 m ρ) q1 c).arrAt 3 cfg1.N)
theorem W3_v7 (c : Dev nD) : W3 m ρ c (Proc.devRef .tc main_v7) = (dat1 (V2 m ρ) q1 c).arrAt 3 cfg1.N := by
  unfold W3; exact Function.update_self ..
theorem W3_of_ne (c : Dev nD) (b : Ref sig .tc) (hb : b ≠ main_v7) :
    W3 m ρ c (Proc.devRef .tc b) = W2 m ρ c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m ρ c b

def W4 (c : Dev nD) : Valuation τ sig (Elt F) :=
  Pipeline.withArrays spec2 c (W3 m ρ c) fun w => (dat2 (V3 m ρ) qfull c).arrAt w cfg2.N
theorem W4_arr (c : Dev nD) (w : Fin cfg2.W) :
    W4 m ρ c (Proc.devRef .tc (Pipeline.arrRef spec2 w)) = (dat2 (V3 m ρ) qfull c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) qfull c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps3 (W4 m ρ c)

/-! ### No segment writes an argument array -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps3 _ hostOps3_writes (r := main_arg0) (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps3 _ hostOps3_writes (r := main_arg1) (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps3 _ hostOps3_writes (r := main_arg2) (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps3 _ hostOps3_writes (r := main_arg3) (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps3 _ hostOps3_writes (r := main_arg4) (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

/-! ## The proof data family and the thread state -/

abbrev adm : (p : Fin 3) → (pcfgs (F := F) p).Adm := fun p => (cfgs p).toPCfg_adm
/-- Every call's proof data, each at its entry contents. -/
def pdats : (p : Fin 3) → (c : Dev nD) → Dat τ (Elt F) Unit ℕ (UR sig nD τ) ℕ (Pipeline.pin (pcfgs (F := F)) adm p) c
  | ⟨0, _⟩ => fun c => dat0 (V1 m ρ) qfull c
  | ⟨1, _⟩ => fun c => dat1 (V2 m ρ) q1 c
  | ⟨2, _⟩ => fun c => dat2 (V3 m ρ) qfull c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ### The attention call's arrays: one array behind three input windows -/

/-- The buffers behind the attention call's four windows are two: the projected features and the attention output. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v6) ↦{fullShare} V main_v6) ∗ (((c : Thread nD τ).loc main_v7) ↦{fullShare} V main_v7)) := by
  unfold Pipeline.arrBufs
  rw [show Finset.univ.image (Pipeline.arrRef spec1) = {main_v6, main_v7} from by decide, bigSep_insert (by decide), bigSep_singleton]
  rfl

/-- The call's arrays at contents `G`: the three input windows hold the projected features at the three parts of its share,
    the output window holds its array whole. -/
theorem arrays1_eq (V' : (c : Dev nD) → (b : Ref sig .tc) → Buf (Elt F) ((c : Thread nD τ).loc b)) (c : Dev nD)
    (G : (w : Fin cfg1.W) → Buf (Elt F) ((cfg1.win w).arr.view.loc (c : Thread nD τ))) :
    ((dat1 V' q1 c).arrays G : sProp 𝕄)
      = iprop((((c : Thread nD τ).loc main_v6) ↦{fullShare.left} G 0) ∗ (((c : Thread nD τ).loc main_v6) ↦{fullShare.right.left} G 1)
          ∗ (((c : Thread nD τ).loc main_v6) ↦{fullShare.right.right} G 2) ∗ (((c : Thread nD τ).loc main_v7) ↦{fullShare} G 3)) := by
  unfold Dat.arrays
  rw [bigSep_W1, (arr_whole1 0).set_eq_univ, (arr_whole1 3).set_eq_univ]
  rfl

/-- ENTRY of the attention call: the unscoped buffers at the contents before it are its arrays at the entry contents — the
    projected features' whole share dealt among the three input windows — and the unscoped rest. -/
theorem entry1 (c : Dev nD) :
    (StableHlo.held (c : Thread nD τ) (Pipeline.ucRefs τ sig) (W2 m ρ c) : sProp 𝕄)
      ⊢ iprop((dat1 (V2 m ρ) q1 c).arrays ((dat1 (V2 m ρ) q1 c).arrAt · 0)
          ∗ Pipeline.unscopedRest (Ix := Unit) (Name := ℕ) (U := UR sig nD τ) (Lvl := ℕ) spec1 c (V2 m ρ c)) := by
  rw [← Pipeline.unscopedBufs_held c (W2 m ρ c),
    Pipeline.unscopedBufs_split₀ (Ix := Unit) (Name := ℕ) (U := UR sig nD τ) (Lvl := ℕ) (Pipeline.pin (pcfgs (F := F)) adm) 1 winFacts₀1.arr_unscoped c (V2 m ρ c)]
  show iprop((Pipeline.arrBufs (Ix := Unit) (Name := ℕ) (U := UR sig nD τ) (Lvl := ℕ) spec1 c (V2 m ρ c) : sProp 𝕄)
      ∗ Pipeline.unscopedRest (Ix := Unit) (Name := ℕ) (U := UR sig nD τ) (Lvl := ℕ) spec1 c (V2 m ρ c)) ⊢ _
  rw [arrBufs1_eq, arrays1_eq]
  iintro ⟨⟨H6, H7⟩, Hrest⟩
  ihave H6 := (pointsTo_share (PosShare.mem_left_op_right fullShare)).1 $$ H6
  icases H6 with ⟨H6l, H6r⟩
  ihave H6r := (pointsTo_share (PosShare.mem_left_op_right fullShare.right)).1 $$ H6r
  icases H6r with ⟨H6rl, H6rr⟩
  isplitr [Hrest]
  · isplitl [H6l]; · iexact H6l
    isplitl [H6rl]; · iexact H6rl
    isplitl [H6rr]; · iexact H6rr
    iexact H7
  iexact Hrest

/-- EXIT of the attention call: its arrays at what the write-backs leave — the three shares of the projected features, which
    no write-back touches, joined again; the output array at its final contents — and the unscoped rest are the unscoped
    buffers at the contents after the call. -/
theorem exit1 (c : Dev nD) :
    iprop((dat1 (V2 m ρ) q1 c).arrays ((dat1 (V2 m ρ) q1 c).arrAt · cfg1.N)
        ∗ Pipeline.unscopedRest (Ix := Unit) (Name := ℕ) (U := UR sig nD τ) (Lvl := ℕ) spec1 c (V2 m ρ c))
      ⊢ (StableHlo.held (c : Thread nD τ) (Pipeline.ucRefs τ sig) (W3 m ρ c) : sProp 𝕄) := by
  rw [← Pipeline.unscopedBufs_held c (W3 m ρ c),
    Pipeline.unscopedBufs_split₀ (Ix := Unit) (Name := ℕ) (U := UR sig nD τ) (Lvl := ℕ) (Pipeline.pin (pcfgs (F := F)) adm) 1 winFacts₀1.arr_unscoped c (V3 m ρ c)]
  show _ ⊢ iprop((Pipeline.arrBufs (Ix := Unit) (Name := ℕ) (U := UR sig nD τ) (Lvl := ℕ) spec1 c (V3 m ρ c) : sProp 𝕄)
      ∗ Pipeline.unscopedRest (Ix := Unit) (Name := ℕ) (U := UR sig nD τ) (Lvl := ℕ) spec1 c (V3 m ρ c))
  rw [arrBufs1_eq, arrays1_eq]
  have h0 : (dat1 (V2 m ρ) q1 c).arrAt 0 cfg1.N = V2 m ρ c main_v6 := ((dat1 (V2 m ρ) q1 c).arrAt_in 0 rfl _).trans (A_eq1 (V2 m ρ) q1 c 0)
  have h1 : (dat1 (V2 m ρ) q1 c).arrAt 1 cfg1.N = V2 m ρ c main_v6 := ((dat1 (V2 m ρ) q1 c).arrAt_in 1 rfl _).trans (A_eq1 (V2 m ρ) q1 c 1)
  have h2 : (dat1 (V2 m ρ) q1 c).arrAt 2 cfg1.N = V2 m ρ c main_v6 := ((dat1 (V2 m ρ) q1 c).arrAt_in 2 rfl _).trans (A_eq1 (V2 m ρ) q1 c 2)
  have h6 : V3 m ρ c main_v6 = V2 m ρ c main_v6 := W3_of_ne m ρ c main_v6 (by decide)
  have h7 : V3 m ρ c main_v7 = (dat1 (V2 m ρ) q1 c).arrAt 3 cfg1.N := W3_v7 m ρ c
  have hrest : (Pipeline.unscopedRest (Ix := Unit) (Name := ℕ) (U := UR sig nD τ) (Lvl := ℕ) spec1 c (V3 m ρ c) : sProp 𝕄)
      = Pipeline.unscopedRest (Ix := Unit) (Name := ℕ) (U := UR sig nD τ) (Lvl := ℕ) spec1 c (V2 m ρ c) := by
    unfold Pipeline.unscopedRest
    refine bigSep_congr fun b hb => ?_
    rw [show V3 m ρ c b = V2 m ρ c b from W3_of_ne m ρ c b fun e =>
      (Finset.mem_sdiff.mp hb).2 (Finset.mem_image.mpr ⟨3, Finset.mem_univ _, e.symm⟩)]
  rw [h0, h1, h2, h6, h7, hrest]
  iintro ⟨⟨H6l, H6rl, H6rr, H7⟩, Hrest⟩
  ihave H6r := (pointsTo_share (PosShare.mem_left_op_right fullShare.right)).2 $$ [H6rl H6rr]
  · isplitl [H6rl] <;> iassumption
  ihave H6 := (pointsTo_share (PosShare.mem_left_op_right fullShare)).2 $$ [H6l H6r]
  · isplitl [H6l] <;> iassumption
  isplitr [Hrest]
  · isplitl [H6]; · iexact H6
    iexact H7
  iexact Hrest

/-! ## The calls as segments -/

set_option backward.isDefEq.respectTransparency.types false in
/-- Pallas call 0 as a segment of the run: entered with every unscoped buffer at the contents before it, left with them at the
    contents after it. Its windows' arrays are split out of the unscoped buffers and put back at what the write-backs leave;
    the generator register passes through the invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) qfull c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call as a segment. Its three input windows read the projected-features array: at entry the array's whole
    share is dealt among them, at exit the three shares are joined again; its output array is put back at what the
    write-backs leave. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) q1 c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    iintro ⟨⟨Hub, Hp, HO⟩, -, -⟩
    ihave H := (entry1 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m ρ c)
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Pallas call 2 as a segment of the run: entered with every unscoped buffer at the contents before it, left with them at the
    contents after it. Its windows' arrays are split out of the unscoped buffers and put back at what the write-backs leave;
    the generator register passes through the invariant; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) qfull c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting, and
    every final state holds each unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_main m ρ)

end Cert.KernelIdeal.Fr

end
-- ==== Proof.Payloads.lean ====
/-
  The three kernel bodies' arithmetic read at an index: each payload, a pure term of the blocks its body loads,
  evaluated at one element of the block it stores, over the extended reals.

  * the projection blocks (first and third kernel): row r, column e of the stored block is
    (Σ_d A[r,d] · W[d,e]) + bias[0,e];
  * the attention block (second kernel): a 128-lane column block holds two heads of 64 lanes; at row r, head hh,
    lane d the stored element is (Σ_k exp(S k − max_k S) · V[k, hh·64+d]) / (Σ_k exp(S k − max_k S)) with
    S k = Σ_d' Q[r, hh·64+d'] · K[k, hh·64+d'].
-/
import proofs.«132570_j36283883716940_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Idealize.ShloMosaic Idealize.SL.Sem Idealize.ShloMosaic.ValueIdx
open Cert.KernelIdeal Cert.KernelIdeal.Gen

/-! ## A rows-by-columns product into the zero accumulator, read at (r, c) -/

/-- With one contracted axis (the left operand's second, the right operand's first) the product at (r, c) is the sum
    over the contracted coordinate q of A[r,q] · B[q,c]. -/
theorem matmul2_apply {m k n : Nat} (D : DotDims ⟨2, ![m, k]⟩ ⟨2, ![k, n]⟩ ⟨2, ![m, n]⟩)
    (hr : D.contr.rank = 1) (hs : D.contr.size ⟨0, by omega⟩ = k)
    (hlc : D.lhsContracting = [1]) (hrc : D.rhsContracting = [0])
    (l0 : ∀ (j : (⟨2, ![m, n]⟩ : Shape).Idx) (q : D.contr.Idx), (D.lhsIdx j q 0).val = (j 0).val)
    (r1 : ∀ (j : (⟨2, ![m, n]⟩ : Shape).Idx) (q : D.contr.Idx), (D.rhsIdx j q 1).val = (j 1).val)
    {φ₁ φ₂ : FTy} (prec : Option ContractPrecision)
    (A : FVec Ideal ⟨2, ![m, k]⟩ φ₁) (B : FVec Ideal ⟨2, ![k, n]⟩ φ₂) (r : Fin m) (c : Fin n) :
    matmul D prec A B (constant ⟨2, ![m, n]⟩ .f32 0x00000000#32) (ix2 r c) = ∑ q : Fin k, A (ix2 r q) * B (ix2 q c) := by
  refine (Ideal.matmul_constant_zero_apply D prec A B (ix2 r c)).trans ?_
  rw [← Equiv.sum_comp (contrEquiv1 D k hr hs).symm]
  refine Finset.sum_congr rfl fun q _ => ?_
  have hk := contrEquiv1_symm_val D k hr hs q
  have el : D.lhsIdx (ix2 r c) ((contrEquiv1 D k hr hs).symm q) = ix2 r q := funext fun a => Fin.ext (by
    match a with
    | ⟨0, _⟩ => exact l0 _ _
    | ⟨1, _⟩ => exact (D.lhsIdx_val_of_single hlc _ _).trans hk)
  have er : D.rhsIdx (ix2 r c) ((contrEquiv1 D k hr hs).symm q) = ix2 q c := funext fun a => Fin.ext (by
    match a with
    | ⟨0, _⟩ => exact (D.rhsIdx_val_of_single hrc _ _).trans hk
    | ⟨1, _⟩ => exact r1 _ _)
  rw [el, er]

/-! ## The projection blocks -/

theorem dot0_l0 (j : S512x3072.Idx) (q : dot_S512x1024_S1024x3072_S512x3072_1_0_0_1_n_n.contr.Idx) :
    (dot_S512x1024_S1024x3072_S512x3072_1_0_0_1_n_n.lhsIdx j q 0).val = (j 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem dot0_r1 (j : S512x3072.Idx) (q : dot_S512x1024_S1024x3072_S512x3072_1_0_0_1_n_n.contr.Idx) :
    (dot_S512x1024_S1024x3072_S512x3072_1_0_0_1_n_n.rhsIdx j q 1).val = (j 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- A bias row [1, n] broadcast down m rows reads its column. -/
theorem bcastRow_apply {α : Type} {m n : Nat} (hn : n ≠ 1) (x : (⟨2, ![1, n]⟩ : Shape).Idx → α)
    (h : (⟨2, ![1, n]⟩ : Shape).Broadcasts ⟨2, ![m, n]⟩) (r : Fin m) (c : Fin n) :
    broadcastTo ⟨2, ![m, n]⟩ x h (ix2 r c) = x (ix2 (0 : Fin 1) c) :=
  broadcastTo_apply x h (ix2 r c) (ix2 (0 : Fin 1) c) (fun a => match a with
    | ⟨0, _⟩ => by show 0 = if (1 : Nat) = 1 then 0 else _; rw [if_pos rfl]
    | ⟨1, _⟩ => by show c.val = if n = 1 then 0 else c.val; rw [if_neg hn])

/-- The first kernel's stored block at (r, e). -/
theorem pay0_apply (v0 : Vec Ideal S512x1024 .bf16) (v2 : Vec Ideal S1024x3072 .bf16) (v4 : Vec Ideal S1x3072 .f32)
    (r : Fin 512) (e : Fin 3072) :
    k0_pay1 (F := Ideal) v0 v2 v4 (ix2 r e)
      = (∑ d : Fin 1024, v0 (ix2 r d) * v2 (ix2 d e)) + v4 (ix2 (0 : Fin 1) e) := by
  unfold k0_pay1
  rw [shapeCast_self v0, shapeCast_self v2, shapeCast_self v4]
  show (matmul (F := Ideal) (φ₁ := .bf16) (φ₂ := .bf16) dot_S512x1024_S1024x3072_S512x3072_1_0_0_1_n_n none v0 v2
        (constant S512x3072 .f32 0x00000000#32) (ix2 r e) : EReal)
      + (broadcastTo S512x3072 v4 broadcasts_S1x3072_S512x3072 (ix2 r e) : EReal) = _
  rw [matmul2_apply dot_S512x1024_S1024x3072_S512x3072_1_0_0_1_n_n rfl rfl rfl rfl dot0_l0 dot0_r1,
    bcastRow_apply (by decide)]

theorem dot2_l0 (j : S1024x1024.Idx) (q : dot_S1024x1024_S1024x1024_S1024x1024_1_0_0_1_n_n.contr.Idx) :
    (dot_S1024x1024_S1024x1024_S1024x1024_1_0_0_1_n_n.lhsIdx j q 0).val = (j 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem dot2_r1 (j : S1024x1024.Idx) (q : dot_S1024x1024_S1024x1024_S1024x1024_1_0_0_1_n_n.contr.Idx) :
    (dot_S1024x1024_S1024x1024_S1024x1024_1_0_0_1_n_n.rhsIdx j q 1).val = (j 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The third kernel's stored block at (r, e). -/
theorem pay2_apply (v0 : Vec Ideal S1024x1024 .bf16) (v2 : Vec Ideal S1024x1024 .bf16) (v4 : Vec Ideal S1x1024 .f32)
    (r : Fin 1024) (e : Fin 1024) :
    k2_pay1 (F := Ideal) v0 v2 v4 (ix2 r e)
      = (∑ d : Fin 1024, v0 (ix2 r d) * v2 (ix2 d e)) + v4 (ix2 (0 : Fin 1) e) := by
  unfold k2_pay1
  rw [shapeCast_self v0, shapeCast_self v2, shapeCast_self v4]
  show (matmul (F := Ideal) (φ₁ := .bf16) (φ₂ := .bf16) dot_S1024x1024_S1024x1024_S1024x1024_1_0_0_1_n_n none v0 v2
        (constant S1024x1024 .f32 0x00000000#32) (ix2 r e) : EReal)
      + (broadcastTo S1024x1024 v4 broadcasts_S1x1024_S1024x1024 (ix2 r e) : EReal) = _
  rw [matmul2_apply dot_S1024x1024_S1024x1024_S1024x1024_1_0_0_1_n_n rfl rfl rfl rfl dot2_l0 dot2_r1,
    bcastRow_apply (by decide)]

/-! ## The attention block -/

/-- Column `hh·64 + d` of a 128-lane block: lane `d` of the block's head `hh`. -/
def lane (hh : Fin 2) (d : Fin 64) : Fin 128 := ⟨hh.val * 64 + d.val, by omega⟩

/-- The scores of query row `r` of head `hh` against every key row. -/
def rowScore (v0 : Vec Ideal S512x128 .bf16) (v2 : Vec Ideal S2048x128 .bf16) (r : Fin 512) (hh : Fin 2) : Fin 2048 → EReal :=
  fun k => ∑ d' : Fin 64, v0 (ix2 r (lane hh d')) * v2 (ix2 k (lane hh d'))

theorem dotS_l0 (j : S512x2048.Idx) (q : dot_S512x64_S64x2048_S512x2048_1_0_0_1_n_n.contr.Idx) :
    (dot_S512x64_S64x2048_S512x2048_1_0_0_1_n_n.lhsIdx j q 0).val = (j 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
theorem dotS_r1 (j : S512x2048.Idx) (q : dot_S512x64_S64x2048_S512x2048_1_0_0_1_n_n.contr.Idx) :
    (dot_S512x64_S64x2048_S512x2048_1_0_0_1_n_n.rhsIdx j q 1).val = (j 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl
theorem dotW_l0 (j : S512x64.Idx) (q : dot_S512x2048_S2048x64_S512x64_1_0_0_1_n_n.contr.Idx) :
    (dot_S512x2048_S2048x64_S512x64_1_0_0_1_n_n.lhsIdx j q 0).val = (j 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem dotW_r1 (j : S512x64.Idx) (q : dot_S512x2048_S2048x64_S512x64_1_0_0_1_n_n.contr.Idx) :
    (dot_S512x2048_S2048x64_S512x64_1_0_0_1_n_n.rhsIdx j q 1).val = (j 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- One head's scores: queries times transposed keys. -/
def scores (q : FVec Ideal S512x64 .bf16) (kk : FVec Ideal S2048x64 .bf16) : FVec Ideal S512x2048 .f32 :=
  matmul dot_S512x64_S64x2048_S512x2048_1_0_0_1_n_n none q
    (transpose S64x2048 [1, 0] kk transposes_S2048x64_p1_0_S64x2048) (constant S512x2048 .f32 0x00000000#32)

theorem scores_apply (q : FVec Ideal S512x64 .bf16) (kk : FVec Ideal S2048x64 .bf16) (r : Fin 512) (k : Fin 2048) :
    scores q kk (ix2 r k) = ∑ d' : Fin 64, q (ix2 r d') * kk (ix2 k d') := by
  unfold scores
  rw [matmul2_apply dot_S512x64_S64x2048_S512x2048_1_0_0_1_n_n rfl rfl rfl rfl dotS_l0 dotS_r1]
  exact Finset.sum_congr rfl fun d' _ => by rw [transpose_ix2_apply]

/-- The pattern of -∞ is the bottom element. -/
theorem ofBits_neg_inf_f32 : Ideal.ofBits .f32 0xFF800000#32 = ⊥ := by simp [Ideal.ofBits, Ideal.ieee]

/-- Row `r` with the reduced column `k` put back is (r, k). -/
theorem lift_ix (r : Fin 512) (k : Fin 2048) : reduces_S512x2048_S512.lift (ix1 r) k = ix2 r k :=
  funext fun a => Fin.ext (by match a with | ⟨0, _⟩ => rfl | ⟨1, _⟩ => rfl)

/-- The row maxima of a [512, 2048] array. -/
def rowMaxV (X : FVec Ideal S512x2048 .f32) : FVec Ideal S512 .f32 :=
  multiReduction .maximumf [1] S512 X 0xFF800000#32 reduces_S512x2048_S512 (.inl rfl) rfl

theorem rowMaxV_apply (X : FVec Ideal S512x2048 .f32) (r : Fin 512) :
    rowMaxV X (ix1 r) = (Finset.univ : Finset (Fin 2048)).fold max (⊥ : EReal) (fun k => X (ix2 r k)) := by
  unfold rowMaxV
  refine (Ideal.multiReduction_maximumf_single X _ reduces_S512x2048_S512 (.inl rfl) rfl (ix1 r)).trans ?_
  show (Finset.univ : Finset (Fin 2048)).fold max (Ideal.ofBits .f32 0xFF800000#32) (X ∘ reduces_S512x2048_S512.lift (ix1 r)) = _
  rw [ofBits_neg_inf_f32]
  exact congrArg (fun f => (Finset.univ : Finset (Fin 2048)).fold max (⊥ : EReal) f) (funext fun k => congrArg X (lift_ix r k))

/-- The row sums of a [512, 2048] array. -/
def rowSumV (E : FVec Ideal S512x2048 .f32) : FVec Ideal S512 .f32 :=
  multiReduction .add [1] S512 E 0x00000000#32 reduces_S512x2048_S512 (.inl rfl) rfl

theorem rowSumV_apply (E : FVec Ideal S512x2048 .f32) (r : Fin 512) :
    rowSumV E (ix1 r) = ∑ k : Fin 2048, E (ix2 r k) := by
  unfold rowSumV
  refine (Ideal.multiReduction_add_single E _ reduces_S512x2048_S512 (.inl rfl) rfl (ix1 r)).trans ?_
  show ∑ k : Fin 2048, E (reduces_S512x2048_S512.lift (ix1 r) k) = _
  exact Finset.sum_congr rfl fun k _ => congrArg E (lift_ix r k)

/-- A vector [m] viewed as a column [m, 1] reads its row. -/
theorem keepdims_apply {α : Type} {m : Nat} (x : (⟨1, ![m]⟩ : Shape).Idx → α)
    (h : (⟨1, ![m]⟩ : Shape).ShapeCasts ⟨2, ![m, 1]⟩) (r : Fin m) (u : Fin 1) :
    shapeCast ⟨2, ![m, 1]⟩ x h (ix2 r u) = x (ix1 r) :=
  shapeCast_apply x h _ _ (by
    have hu : u.val = 0 := by omega
    rw [Shape.rowMajor_val_one, Shape.rowMajor_val_two]
    show r.val = r.val * 1 + u.val
    omega)

/-- A column [m, 1] broadcast along n columns reads its row. -/
theorem bcastCol_apply {α : Type} {m n : Nat} (hm : m ≠ 1) (x : (⟨2, ![m, 1]⟩ : Shape).Idx → α)
    (h : (⟨2, ![m, 1]⟩ : Shape).Broadcasts ⟨2, ![m, n]⟩) (r : Fin m) (c : Fin n) :
    broadcastTo ⟨2, ![m, n]⟩ x h (ix2 r c) = x (ix2 r (0 : Fin 1)) :=
  broadcastTo_apply x h (ix2 r c) (ix2 r (0 : Fin 1)) (fun a => match a with
    | ⟨0, _⟩ => by show r.val = if m = 1 then 0 else r.val; rw [if_neg hm]
    | ⟨1, _⟩ => by show 0 = if (1 : Nat) = 1 then 0 else _; rw [if_pos rfl])

/-- The shifted exponentials of a [512, 2048] array: each entry less its row's maximum, exponentiated. -/
def expo (X : FVec Ideal S512x2048 .f32) : FVec Ideal S512x2048 .f32 :=
  exp (subf X (broadcastTo S512x2048 (shapeCast S512x1 (rowMaxV X) shapeCasts_S512_S512x1) broadcasts_S512x1_S512x2048))

theorem expo_apply (X : FVec Ideal S512x2048 .f32) (r : Fin 512) (k : Fin 2048) :
    expo X (ix2 r k) = Ideal.exp (X (ix2 r k) - (Finset.univ : Finset (Fin 2048)).fold max (⊥ : EReal) (fun k' => X (ix2 r k'))) := by
  show Ideal.exp (X (ix2 r k) - broadcastTo S512x2048 (shapeCast S512x1 (rowMaxV X) shapeCasts_S512_S512x1) broadcasts_S512x1_S512x2048 (ix2 r k)) = _
  rw [bcastCol_apply (by decide), keepdims_apply, rowMaxV_apply]

/-- One head's stored block from its three 64-lane slices. -/
def headPay (q : FVec Ideal S512x64 .bf16) (kk vv : FVec Ideal S2048x64 .bf16) : FVec Ideal S512x64 .bf16 :=
  truncf .bf16
    (divf
      (matmul dot_S512x2048_S2048x64_S512x64_1_0_0_1_n_n none (truncf .bf16 (expo (scores q kk)) bitsLt_bf16_f32) vv
        (constant S512x64 .f32 0x00000000#32))
      (broadcastTo S512x64 (shapeCast S512x1 (rowSumV (expo (scores q kk))) shapeCasts_S512_S512x1) broadcasts_S512x1_S512x64))
    bitsLt_bf16_f32

theorem headPay_apply (q : FVec Ideal S512x64 .bf16) (kk vv : FVec Ideal S2048x64 .bf16) (r : Fin 512) (d : Fin 64) :
    headPay q kk vv (ix2 r d)
      = Ideal.div
          (∑ k : Fin 2048, Ideal.exp ((∑ d' : Fin 64, q (ix2 r d') * kk (ix2 k d'))
              - (Finset.univ : Finset (Fin 2048)).fold max (⊥ : EReal) (fun k' => ∑ d' : Fin 64, q (ix2 r d') * kk (ix2 k' d')))
            * vv (ix2 k d))
          (∑ k : Fin 2048, Ideal.exp ((∑ d' : Fin 64, q (ix2 r d') * kk (ix2 k d'))
              - (Finset.univ : Finset (Fin 2048)).fold max (⊥ : EReal) (fun k' => ∑ d' : Fin 64, q (ix2 r d') * kk (ix2 k' d')))) := by
  have hE : ∀ k : Fin 2048, expo (scores q kk) (ix2 r k)
      = Ideal.exp ((∑ d' : Fin 64, q (ix2 r d') * kk (ix2 k d'))
          - (Finset.univ : Finset (Fin 2048)).fold max (⊥ : EReal) (fun k' => ∑ d' : Fin 64, q (ix2 r d') * kk (ix2 k' d'))) := fun k => by
    rw [expo_apply, scores_apply]
    exact congrArg (fun f => Ideal.exp (_ - (Finset.univ : Finset (Fin 2048)).fold max (⊥ : EReal) f)) (funext fun k' => scores_apply q kk r k')
  show Ideal.div
      (matmul (F := Ideal) (φ₁ := .bf16) (φ₂ := .bf16) dot_S512x2048_S2048x64_S512x64_1_0_0_1_n_n none
        (truncf .bf16 (expo (scores q kk)) bitsLt_bf16_f32) vv (constant S512x64 .f32 0x00000000#32) (ix2 r d))
      (broadcastTo S512x64 (shapeCast S512x1 (rowSumV (expo (scores q kk))) shapeCasts_S512_S512x1) broadcasts_S512x1_S512x64 (ix2 r d)) = _
  rw [matmul2_apply dot_S512x2048_S2048x64_S512x64_1_0_0_1_n_n rfl rfl rfl rfl dotW_l0 dotW_r1,
    bcastCol_apply (by decide), keepdims_apply, rowSumV_apply]
  refine congrArg₂ Ideal.div (Finset.sum_congr rfl fun k _ => ?_) (Finset.sum_congr rfl fun k _ => hE k)
  show expo (scores q kk) (ix2 r k) * vv (ix2 k d) = _
  rw [hE k]

/-- A [m, 128] array cut to the 64 lanes from `o = hh·64` reads lane `d` of head `hh`. -/
theorem sliceLane_apply {α : Type} {m : Nat} (X : (⟨2, ![m, 128]⟩ : Shape).Idx → α) (o : Nat) (hh : Fin 2)
    (ho : o = hh.val * 64) (h : (⟨2, ![m, 128]⟩ : Shape).Slices ![0, o] ⟨2, ![m, 64]⟩) (a : Fin m) (d : Fin 64) :
    extractStridedSlice ⟨2, ![m, 64]⟩ ![0, o] X h (ix2 a d) = X (ix2 a (lane hh d)) :=
  slice2_axis1_apply o X h a d (lane hh d) (by show hh.val * 64 + d.val = o + d.val; omega)

/-- The second kernel's stored block is its two heads' blocks side by side. -/
theorem k1_pay1_eq (v0 : Vec Ideal S512x128 .bf16) (v2 v4 : Vec Ideal S2048x128 .bf16) :
    k1_pay1 (F := Ideal) v0 v2 v4
      = concatenate S512x128 1
          [⟨S512x64, headPay (extractStridedSlice S512x64 ![0, 0] v0 slices_S512x128_o0_0_S512x64)
              (extractStridedSlice S2048x64 ![0, 0] v2 slices_S2048x128_o0_0_S2048x64)
              (extractStridedSlice S2048x64 ![0, 0] v4 slices_S2048x128_o0_0_S2048x64)⟩,
           ⟨S512x64, headPay (extractStridedSlice S512x64 ![0, 64] v0 slices_S512x128_o0_64_S512x64)
              (extractStridedSlice S2048x64 ![0, 64] v2 slices_S2048x128_o0_64_S2048x64)
              (extractStridedSlice S2048x64 ![0, 64] v4 slices_S2048x128_o0_64_S2048x64)⟩]
          concatenates_S512x64_S512x64_S512x128_d1 := by
  unfold k1_pay1
  rw [shapeCast_self v0, shapeCast_self v2, shapeCast_self v4]
  rfl

/-- The second kernel's stored block at row `r`, lane `d` of head `hh`. -/
theorem pay1_apply (v0 : Vec Ideal S512x128 .bf16) (v2 v4 : Vec Ideal S2048x128 .bf16) (r : Fin 512) (hh : Fin 2) (d : Fin 64) :
    k1_pay1 (F := Ideal) v0 v2 v4 (ix2 r (lane hh d))
      = Ideal.div
          (∑ k : Fin 2048, Ideal.exp (rowScore v0 v2 r hh k - (Finset.univ : Finset (Fin 2048)).fold max (⊥ : EReal) (rowScore v0 v2 r hh))
            * v4 (ix2 k (lane hh d)))
          (∑ k : Fin 2048, Ideal.exp (rowScore v0 v2 r hh k - (Finset.univ : Finset (Fin 2048)).fold max (⊥ : EReal) (rowScore v0 v2 r hh))) := by
  rw [k1_pay1_eq]
  obtain ⟨hv, hlt⟩ := hh
  have h01 : hv = 0 ∨ hv = 1 := by omega
  rcases h01 with rfl | rfl
  · refine (concatenate_pair_apply_left (1 : Fin S512x128.rank) _ _ concatenates_S512x64_S512x64_S512x128_d1
      (ix2 r (lane ⟨0, hlt⟩ d)) rfl (ix2 r d) (fun b => match b with
        | ⟨0, _⟩ => rfl
        | ⟨1, _⟩ => by show d.val = 0 * 64 + d.val; omega)).trans ?_
    rw [headPay_apply]
    simp only [sliceLane_apply _ 0 ⟨0, hlt⟩ rfl]
    rfl
  · refine (concatenate_pair_apply_right (1 : Fin S512x128.rank) _ _ concatenates_S512x64_S512x64_S512x128_d1
      (ix2 r (lane ⟨1, hlt⟩ d)) rfl rfl (ix2 r d) (fun b hb => match b, hb with
        | ⟨0, _⟩, _ => rfl
        | ⟨1, _⟩, hb => absurd rfl hb) (by show d.val + 64 = 1 * 64 + d.val; omega)).trans ?_
    rw [headPay_apply]
    simp only [sliceLane_apply _ 64 ⟨1, hlt⟩ rfl]
    rfl

/-- The same with the scores written out. -/
theorem pay1_apply' (v0 : Vec Ideal S512x128 .bf16) (v2 v4 : Vec Ideal S2048x128 .bf16) (r : Fin 512) (hh : Fin 2) (d : Fin 64) :
    k1_pay1 (F := Ideal) v0 v2 v4 (ix2 r (lane hh d))
      = Ideal.div
          (∑ k : Fin 2048, Ideal.exp ((fun k : Fin 2048 => ∑ d' : Fin 64, v0 (ix2 r (lane hh d')) * v2 (ix2 k (lane hh d'))) k
              - (Finset.univ : Finset (Fin 2048)).fold max (⊥ : EReal)
                  (fun k : Fin 2048 => ∑ d' : Fin 64, v0 (ix2 r (lane hh d')) * v2 (ix2 k (lane hh d'))))
            * v4 (ix2 k (lane hh d)))
          (∑ k : Fin 2048, Ideal.exp ((fun k : Fin 2048 => ∑ d' : Fin 64, v0 (ix2 r (lane hh d')) * v2 (ix2 k (lane hh d'))) k
              - (Finset.univ : Finset (Fin 2048)).fold max (⊥ : EReal)
                  (fun k : Fin 2048 => ∑ d' : Fin 64, v0 (ix2 r (lane hh d')) * v2 (ix2 k (lane hh d'))))) :=
  pay1_apply v0 v2 v4 r hh d

end Cert.KernelIdeal.Pay

end
-- ==== Proof.KIVal0.lean ====
/-
  Pallas call 0: the output array after the call's last grid point, as one function of the arrays the call is entered with,
  index by index, over the extended reals: row r, column e is (Σ_d A[r,d] · W[d,e]) + bias[0,e].
-/
import proofs.«132570_j36283883716940_2_alg».proof.Proof.KIBody0
import proofs.«132570_j36283883716940_2_alg».proof.Proof.Payloads
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Fr Cert.KernelIdeal.Pay
open Idealize.ShloMosaic Idealize.ShloMosaic.TcCoe Idealize.SL.Sem Idealize.ShloMosaic.ValueIdx
open Idealize.SL Idealize.SL.RA
open Idealize.ShloMosaic.Pipeline (Dat)

variable (V : (c : Dev nD) → (b : Ref sig .tc) → Buf (Elt Ideal) ((c : Thread nD τ).loc b))
variable (q : Fin cfg0.W → PosShare TreeShare)

theorem zeroOff0 : (![0, 0] : Fin 2 → Nat) = fun _ => 0 := funext fun a => by fin_cases a <;> rfl

/-- The rows-by-columns product plus the bias row, at every index of the [8192, 3072] array. -/
def proj0 (X : S8192x1024.Idx → EReal) (Wt : S1024x3072.Idx → EReal) (Bs : S1x3072.Idx → EReal) : S8192x3072.Idx → EReal :=
  fun i => (∑ d : Fin 1024, X (ix2 (i 0) d) * Wt (ix2 d (i 1))) + Bs (ix2 (0 : Fin 1) (i 1))

/-- The printed index maps over the grid: the row-block index of the input rows and of the output is the point, every other
    block index is zero. -/
theorem blockIdx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem pointLt0 (t : Fin cfg0.N) : t.val < 16 := lt_of_lt_of_eq t.isLt N_0

/-- Row `r` of the row block of point `t`. -/
def row0 (t : Fin cfg0.N) (r : Fin 512) : Fin 8192 := ⟨t.val * 512 + r.val, by have := pointLt0 t; omega⟩

/-- The input rows' block at point `t` is rows `512 t … 512 t + 511` of its array. -/
theorem rowsBlk0 (c : Dev nD) (X : S8192x1024.Idx → EReal) (h1 : V c main_v1 = X) (t : Fin cfg0.N) (r : Fin 512) (d : Fin 1024) :
    (iblk0 V c 0 t : Vec Ideal S512x1024 .bf16) (ix2 r d) = X (ix2 (row0 t r) d) := by
  obtain ⟨e0, e1, -⟩ := blockIdx0 t
  show V c main_v1 (((cfg0.win 0).blk t).view.emb (ix2 r d)) = _
  rw [h1]
  refine congrArg X (funext fun a => Fin.ext ?_)
  match a with
  | ⟨0, _⟩ => show win0_0.index t (0 : Fin 2) * 512 + 1 * r.val = t.val * 512 + r.val; rw [e0]; omega
  | ⟨1, _⟩ => show win0_0.index t (1 : Fin 2) * 1024 + 1 * d.val = d.val; rw [e1]; omega

/-- The weight's block at every point is the whole weight. -/
theorem weightBlk0 (c : Dev nD) (Wt : S1024x3072.Idx → EReal) (h2 : V c main_v2 = Wt) (t : Fin cfg0.N) (d : Fin 1024) (e : Fin 3072) :
    (iblk0 V c 1 t : Vec Ideal S1024x3072 .bf16) (ix2 d e) = Wt (ix2 d e) := by
  obtain ⟨-, -, e0, e1, -⟩ := blockIdx0 t
  show V c main_v2 (((cfg0.win 1).blk t).view.emb (ix2 d e)) = _
  rw [h2]
  refine congrArg Wt (funext fun a => Fin.ext ?_)
  match a with
  | ⟨0, _⟩ => show win0_1.index t (0 : Fin 2) * 1024 + 1 * d.val = d.val; rw [e0]; omega
  | ⟨1, _⟩ => show win0_1.index t (1 : Fin 2) * 3072 + 1 * e.val = e.val; rw [e1]; omega

/-- The bias's block at every point is the whole bias row. -/
theorem biasBlk0 (c : Dev nD) (Bs : S1x3072.Idx → EReal) (h4 : V c main_v4 = Bs) (t : Fin cfg0.N) (u : Fin 1) (e : Fin 3072) :
    (iblk0 V c 2 t : Vec Ideal S1x3072 .f32) (ix2 u e) = Bs (ix2 u e) := by
  obtain ⟨-, -, -, -, e0, e1, -⟩ := blockIdx0 t
  show V c main_v4 (((cfg0.win 2).blk t).view.emb (ix2 u e)) = _
  rw [h4]
  refine congrArg Bs (funext fun a => Fin.ext ?_)
  match a with
  | ⟨0, _⟩ => show win0_2.index t (0 : Fin 2) * 1 + 1 * u.val = u.val; rw [e0]; omega
  | ⟨1, _⟩ => show win0_2.index t (1 : Fin 2) * 3072 + 1 * e.val = e.val; rw [e1]; omega

/-- The output's block at point `t` sits at rows `512 t … 512 t + 511`. -/
theorem outEmb0 (t : Fin cfg0.N) (r : Fin 512) (e : Fin 3072) :
    ((cfg0.win 3).blk t).view.emb (ix2 r e) = ix2 (row0 t r) e := by
  obtain ⟨-, -, -, -, -, -, e0, e1⟩ := blockIdx0 t
  refine funext fun a => Fin.ext ?_
  match a with
  | ⟨0, _⟩ => show win0_3.index t (0 : Fin 2) * 512 + 1 * r.val = t.val * 512 + r.val; rw [e0]; omega
  | ⟨1, _⟩ => show win0_3.index t (1 : Fin 2) * 3072 + 1 * e.val = e.val; rw [e1]; omega

/-- What point `t` writes back is block `t` of the product-plus-bias of the entry arrays. -/
theorem flushed0_eq (c : Dev nD) (X : S8192x1024.Idx → EReal) (Wt : S1024x3072.Idx → EReal) (Bs : S1x3072.Idx → EReal)
    (h1 : V c main_v1 = X) (h2 : V c main_v2 = Wt) (h4 : V c main_v4 = Bs) (t : Fin cfg0.N) :
    (dat0 (F := Ideal) V q c).flushed 3 t = ((cfg0.win 3).blk t).view.read (Elt Ideal) (proj0 X Wt Bs) := by
  show (cfg0.win 3).cut (grid0.coords t) ((dat0 V q c).after 3 t) = _
  rw [after0_3]
  unfold out0_3
  rw [View.canon_unit_zero zeroOff0]
  simp only [View.ld_unit_zero (S := S512x1024) zeroOff0, View.ld_unit_zero (S := S1024x3072) zeroOff0, View.ld_unit_zero (S := S1x3072) zeroOff0]
  funext j
  obtain ⟨r, e, rfl⟩ : ∃ (r : Fin 512) (e : Fin 3072), j = ix2 r e := ⟨j 0, j 1, eq_ix2 j⟩
  show k0_pay1 (F := Ideal) (iblk0 V c 0 t) (iblk0 V c 1 t) (iblk0 V c 2 t) (ix2 r e)
    = proj0 X Wt Bs (((cfg0.win 3).blk t).view.emb (ix2 r e))
  refine (pay0_apply (iblk0 V c 0 t) (iblk0 V c 1 t) (iblk0 V c 2 t) r e).trans ?_
  rw [outEmb0]
  unfold proj0
  refine congrArg₂ (· + ·) (Finset.sum_congr rfl fun d _ => ?_) ?_
  · exact congrArg₂ (· * ·) (rowsBlk0 V c X h1 t r d) (weightBlk0 V c Wt h2 t d e)
  · exact biasBlk0 V c Bs h4 t 0 e

/-- An index of the output array is in point `t`'s block iff each coordinate is in the block's range on its axis. -/
theorem mem_blk0 (t : Fin cfg0.N) (i : S8192x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v6).slice (win0_3.rect t)).set ↔ _
  rw [View.set_slice_whole, Rect.mem_set_unit]
  exact Iff.rfl

/-- Every index of the output array is in the block of the point its row belongs to. -/
theorem cover0 (i : S8192x3072.Idx) :
    ∃ t : Fin cfg0.N, (cfg0.win 3).flush t = true ∧ i ∈ ((cfg0.win 3).blk t).view.set := by
  have hi0 : (i 0).val < 8192 := (i 0).isLt
  have hi1 : (i 1).val < 3072 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨-, -, -, -, -, -, e0, e1⟩ := blockIdx0 t
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; rw [e0, ht]; omega
  | ⟨1, _⟩ => show win0_3.index t (1 : Fin 2) * 3072 ≤ (i 1).val ∧ (i 1).val < win0_3.index t (1 : Fin 2) * 3072 + 3072; rw [e1]; omega

/-- The output array after the last point: the product of the input rows with the weight, plus the bias row. -/
theorem final0 (c : Dev nD) (X : S8192x1024.Idx → EReal) (Wt : S1024x3072.Idx → EReal) (Bs : S1x3072.Idx → EReal)
    (h1 : V c main_v1 = X) (h2 : V c main_v2 = Wt) (h4 : V c main_v4 = Bs) :
    (dat0 (F := Ideal) V q c).arrAt 3 cfg0.N
      = fun i => (∑ d : Fin 1024, X (ix2 (i 0) d) * Wt (ix2 d (i 1))) + Bs (ix2 (0 : Fin 1) (i 1)) :=
  (dat0 (F := Ideal) V q c).arrAt_eq_of_cover 3 (proj0 X Wt Bs) (fun t _ => flushed0_eq V q c X Wt Bs h1 h2 h4 t) cover0

end Cert.KernelIdeal.Val

end
-- ==== Proof.AttnFlat.lean ====
/-
  The same computation as AttnSpec, written over the FLATTENED arrays the three Pallas calls pass to each other: tokens are rows
  r = batch · 2048 + position of [8192, ·] matrices, heads are groups of 64 consecutive columns.

  * rowsOf x          : the input [4, 2048, 1024] as [8192, 1024];
  * proj X W B        : a matrix product plus a bias row broadcast down the rows, (Σ_d X[r,d] · W[d,e]) + B[0,e];
  * attOf Q r c       : attention read off the projected features Q : [8192, 3072] at row r and merged column c —
                        scores of row r against the 2048 rows of r's batch over the 64 columns of c's head, the exponentials
                        of the scores shifted by their maximum, the weighted sum of the value column, ONE division by the
                        sum of the exponentials;
  * unflat O          : a [8192, 1024] result as [4, 2048, 1024].
-/
import Idealize.ShloMosaic.PureOps.Ideal
import Idealize.ShloMosaic.Lib.ValueIdx

noncomputable section

open scoped BigOperators

namespace Cert.AttnFlat

open Idealize.ShloMosaic Idealize.ShloMosaic.ValueIdx

abbrev S3 : Shape := ⟨3, ![4, 2048, 1024]⟩
abbrev SR1024 : Shape := ⟨2, ![8192, 1024]⟩
abbrev SR3072 : Shape := ⟨2, ![8192, 3072]⟩

/-- The batch a flattened row belongs to, and its position inside the batch. -/
def batchOf (r : Fin 8192) : Fin 4 := ⟨r.val / 2048, by omega⟩
def posOf (r : Fin 8192) : Fin 2048 := ⟨r.val % 2048, by omega⟩
/-- The flattened row of position `s` of batch `b`. -/
def rowOf (b : Fin 4) (s : Fin 2048) : Fin 8192 := ⟨b.val * 2048 + s.val, by omega⟩

/-- The input read as a matrix of 8192 rows. -/
def rowsOf (x : S3.Idx → EReal) : SR1024.Idx → EReal := fun i => x (ix3 (batchOf (i 0)) (posOf (i 0)) (i 1))

/-- A matrix product with 1024 contracted columns plus a bias row broadcast down the rows. -/
def proj {n : Nat} (X : SR1024.Idx → EReal) (W : (⟨2, ![1024, n]⟩ : Shape).Idx → EReal) (B : (⟨2, ![1, n]⟩ : Shape).Idx → EReal) :
    (⟨2, ![8192, n]⟩ : Shape).Idx → EReal :=
  fun i => (∑ d : Fin 1024, X (ix2 (i 0) d) * W (ix2 d (i 1))) + B (ix2 (0 : Fin 1) (i 1))

/-- Row `k` of the batch that row `r` belongs to. -/
def keyRow (r : Fin 8192) (k : Fin 2048) : Fin 8192 := ⟨(r.val / 2048) * 2048 + k.val, by omega⟩
/-- The query column of lane `d'` in merged column `cc`'s head. -/
def qc (cc : Fin 1024) (d' : Fin 64) : Fin 3072 := ⟨(cc.val / 64) * 64 + d'.val, by omega⟩
/-- The key column of lane `d'` in merged column `cc`'s head. -/
def kc (cc : Fin 1024) (d' : Fin 64) : Fin 3072 := ⟨1024 + (cc.val / 64) * 64 + d'.val, by omega⟩
/-- The value column of merged column `cc`. -/
def vc (cc : Fin 1024) : Fin 3072 := ⟨2048 + cc.val, by omega⟩

/-- The score of row `r` against row `k` of its batch, in merged column `cc`'s head. -/
def sc (Q : SR3072.Idx → EReal) (r : Fin 8192) (cc : Fin 1024) (k : Fin 2048) : EReal :=
  ∑ d' : Fin 64, Q (ix2 r (qc cc d')) * Q (ix2 (keyRow r k) (kc cc d'))

/-- Attention at row `r`, merged column `cc`: weighted sum first, one division by the sum of the weights. -/
def attOf (Q : SR3072.Idx → EReal) (r : Fin 8192) (cc : Fin 1024) : EReal :=
  Ideal.div
    (∑ k : Fin 2048, Ideal.exp (sc Q r cc k - (Finset.univ : Finset (Fin 2048)).fold max (⊥ : EReal) (sc Q r cc)) * Q (ix2 (keyRow r k) (vc cc)))
    (∑ k : Fin 2048, Ideal.exp (sc Q r cc k - (Finset.univ : Finset (Fin 2048)).fold max (⊥ : EReal) (sc Q r cc)))

/-- The attention matrix of projected features `Q`. -/
def attMat (Q : SR3072.Idx → EReal) : SR1024.Idx → EReal := fun i => attOf Q (i 0) (i 1)

/-- A [8192, 1024] matrix read as [4, 2048, 1024]. -/
def unflat (O : SR1024.Idx → EReal) : S3.Idx → EReal := fun i => O (ix2 (rowOf (i 0) (i 1)) (i 2))

/-- The whole computation over the flattened arrays: `b1r` and `b2r` are the two biases as one-row matrices. -/
def flatOut (x : S3.Idx → EReal) (w1 : (⟨2, ![1024, 3072]⟩ : Shape).Idx → EReal) (b1r : (⟨2, ![1, 3072]⟩ : Shape).Idx → EReal)
    (w2 : (⟨2, ![1024, 1024]⟩ : Shape).Idx → EReal) (b2r : (⟨2, ![1, 1024]⟩ : Shape).Idx → EReal) : S3.Idx → EReal :=
  unflat (proj (attMat (proj (rowsOf x) w1 b1r)) w2 b2r)

end Cert.AttnFlat

end
-- ==== Proof.KIVal1.lean ====
/-
  The attention call's output array after its last grid point, as one function of the projected features it reads.

  The grid has 4 · 8 · 4 points (batch, pair of heads, block of 512 query rows). At a point whose output block sits at
  block index (i0, i1) of the [8192, 1024] result, the query block is block (i0, i1) of the projected features
  Q : [8192, 3072] in blocks of [512, 128], and the key and value blocks are blocks (i0 / 4, 8 + i1) and (i0 / 4, 16 + i1)
  of Q in blocks of [2048, 128]. So the element stored at block coordinate (y0, y1) is attention at row
  r = i0 · 512 + y0 and merged column cc = i1 · 128 + y1: the 64 query and key lanes of cc's head are columns
  (cc / 64) · 64 + d' and 1024 + (cc / 64) · 64 + d', the key and value rows are the 2048 rows of r's batch r / 2048, and
  the value column is 2048 + cc. The output blocks tile the result, so the result is the attention matrix of Q.
-/
import proofs.«132570_j36283883716940_2_alg».proof.Proof.KIBody1
import proofs.«132570_j36283883716940_2_alg».proof.Proof.Payloads
import proofs.«132570_j36283883716940_2_alg».proof.Proof.AttnFlat
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Fr Cert.KernelIdeal.Pay Cert.AttnFlat
open Idealize.ShloMosaic Idealize.ShloMosaic.TcCoe Idealize.ShloMosaic.ValueIdx
open Idealize.SL Idealize.SL.RA Idealize.SL.Sem
open Idealize.ShloMosaic.Pipeline (Dat Cfg Window)

variable (V : (c : Dev nD) → (b : Ref sig .tc) → Buf (Elt Ideal) ((c : Thread nD τ).loc b))
variable (q : Fin cfg1.W → PosShare TreeShare)

theorem hz : (![0, 0] : Fin 2 → Nat) = fun _ => 0 := funext fun a => by fin_cases a <;> rfl

/-- The stored block at block coordinate `y`, when the three loaded blocks are the query rows, the key rows and the value
    rows of the projected features `Q` at block indices `(i0, i1)`, `(i0 / 4, 8 + i1)`, `(i0 / 4, 16 + i1)`, is
    attention at row `i0 · 512 + y 0`, merged column `i1 · 128 + y 1`. -/
theorem point_eq (Q : SR3072.Idx → EReal) (x0 : Vec Ideal S512x128 .bf16) (x1 x2 : Vec Ideal S2048x128 .bf16)
    (i0 i1 : Nat)
    (hx0 : ∀ (a : Fin 512) (b : Fin 128) (p : SR3072.Idx), (p 0).val = i0 * 512 + a.val → (p 1).val = i1 * 128 + b.val →
      x0 (ix2 a b) = Q p)
    (hx1 : ∀ (k : Fin 2048) (b : Fin 128) (p : SR3072.Idx), (p 0).val = i0 / 4 * 2048 + k.val → (p 1).val = (8 + i1) * 128 + b.val →
      x1 (ix2 k b) = Q p)
    (hx2 : ∀ (k : Fin 2048) (b : Fin 128) (p : SR3072.Idx), (p 0).val = i0 / 4 * 2048 + k.val → (p 1).val = (16 + i1) * 128 + b.val →
      x2 (ix2 k b) = Q p)
    (y : S512x128.Idx) (r : Fin 8192) (cc : Fin 1024) (hr : r.val = i0 * 512 + (y 0).val) (hcc : cc.val = i1 * 128 + (y 1).val) :
    k1_pay1 (F := Ideal) x0 x1 x2 y = attOf Q r cc := by
  obtain ⟨y0, y1, rfl⟩ : ∃ (y0 : Fin 512) (y1 : Fin 128), y = ix2 y0 y1 := ⟨y 0, y 1, eq_ix2 y⟩
  obtain ⟨hh, d, rfl⟩ : ∃ (hh : Fin 2) (d : Fin 64), y1 = lane hh d :=
    ⟨⟨y1.val / 64, by omega⟩, ⟨y1.val % 64, by omega⟩, Fin.ext (by show y1.val = y1.val / 64 * 64 + y1.val % 64; omega)⟩
  change r.val = i0 * 512 + y0.val at hr
  change cc.val = i1 * 128 + (hh.val * 64 + d.val) at hcc
  have hy0 : y0.val < 512 := y0.isLt
  have hd : d.val < 64 := d.isLt
  have hhh : hh.val < 2 := hh.isLt
  rw [pay1_apply]
  unfold attOf
  have hS : rowScore x0 x1 y0 hh = sc Q r cc := funext fun k => by
    unfold rowScore sc
    refine Finset.sum_congr rfl fun d' _ => ?_
    have hd' : d'.val < 64 := d'.isLt
    rw [hx0 y0 (lane hh d') (ix2 r (qc cc d')) (by show r.val = _; exact hr)
        (by show cc.val / 64 * 64 + d'.val = i1 * 128 + (hh.val * 64 + d'.val); omega),
      hx1 k (lane hh d') (ix2 (keyRow r k) (kc cc d')) (by show r.val / 2048 * 2048 + k.val = i0 / 4 * 2048 + k.val; omega)
        (by show 1024 + cc.val / 64 * 64 + d'.val = (8 + i1) * 128 + (hh.val * 64 + d'.val); omega)]
  rw [hS]
  refine congrArg₂ Ideal.div (Finset.sum_congr rfl fun k _ => ?_) rfl
  rw [hx2 k (lane hh d) (ix2 (keyRow r k) (vc cc)) (by show r.val / 2048 * 2048 + k.val = i0 / 4 * 2048 + k.val; omega)
      (by show 2048 + cc.val = (16 + i1) * 128 + (hh.val * 64 + d.val); omega)]

/-- The printed index maps, decided over the grid: the query window moves with the output window; the key and the value
    windows sit at the output's row block divided by 4 (its batch) and at its column block shifted by 8 and by 16. -/
theorem idx_facts1 : ∀ t : Fin cfg1.N,
    win1_0.index t (0 : Fin 2) = win1_3.index t (0 : Fin 2)
    ∧ win1_0.index t (1 : Fin 2) = win1_3.index t (1 : Fin 2)
    ∧ win1_1.index t (0 : Fin 2) = win1_3.index t (0 : Fin 2) / 4
    ∧ win1_1.index t (1 : Fin 2) = 8 + win1_3.index t (1 : Fin 2)
    ∧ win1_2.index t (0 : Fin 2) = win1_3.index t (0 : Fin 2) / 4
    ∧ win1_2.index t (1 : Fin 2) = 16 + win1_3.index t (1 : Fin 2)
    ∧ win1_3.index t (0 : Fin 2) ≤ 15 ∧ win1_3.index t (1 : Fin 2) ≤ 7 :=
  (by decide +kernel : ∀ t : Fin grid1.N, _)

/-- Every block of the output array is some point's. -/
theorem idx_onto1 : ∀ (q0 : Fin 16) (q1 : Fin 8), ∃ t : Fin cfg1.N, win1_3.index t = ![q0.val, q1.val] :=
  (by decide +kernel : ∀ (q0 : Fin 16) (q1 : Fin 8), ∃ t : Fin grid1.N, win1_3.index t = ![q0.val, q1.val])

/-- The query window's block at a point, read at (a, b). -/
theorem blk0_read (c : Dev nD) (t : Fin cfg1.N) (Q : SR3072.Idx → EReal) (h6 : V c main_v6 = Q) (a : Fin 512) (b : Fin 128)
    (p : SR3072.Idx) (h0 : (p 0).val = win1_0.index t (0 : Fin 2) * 512 + a.val) (h1 : (p 1).val = win1_0.index t (1 : Fin 2) * 128 + b.val) :
    (iblk1 V c 0 t : Vec Ideal S512x128 .bf16) (ix2 a b) = Q p := by
  show V c main_v6 (((cfg1.win 0).blk t).view.emb (ix2 a b)) = Q p
  rw [h6]
  refine congrArg Q (funext fun ax => Fin.ext ?_)
  match ax with
  | ⟨0, _⟩ => show win1_0.index t (0 : Fin 2) * 512 + 1 * a.val = (p 0).val; omega
  | ⟨1, _⟩ => show win1_0.index t (1 : Fin 2) * 128 + 1 * b.val = (p 1).val; omega

/-- The key window's block at a point, read at (k, b). -/
theorem blk1_read (c : Dev nD) (t : Fin cfg1.N) (Q : SR3072.Idx → EReal) (h6 : V c main_v6 = Q) (k : Fin 2048) (b : Fin 128)
    (p : SR3072.Idx) (h0 : (p 0).val = win1_1.index t (0 : Fin 2) * 2048 + k.val) (h1 : (p 1).val = win1_1.index t (1 : Fin 2) * 128 + b.val) :
    (iblk1 V c 1 t : Vec Ideal S2048x128 .bf16) (ix2 k b) = Q p := by
  show V c main_v6 (((cfg1.win 1).blk t).view.emb (ix2 k b)) = Q p
  rw [h6]
  refine congrArg Q (funext fun ax => Fin.ext ?_)
  match ax with
  | ⟨0, _⟩ => show win1_1.index t (0 : Fin 2) * 2048 + 1 * k.val = (p 0).val; omega
  | ⟨1, _⟩ => show win1_1.index t (1 : Fin 2) * 128 + 1 * b.val = (p 1).val; omega

/-- The value window's block at a point, read at (k, b). -/
theorem blk2_read (c : Dev nD) (t : Fin cfg1.N) (Q : SR3072.Idx → EReal) (h6 : V c main_v6 = Q) (k : Fin 2048) (b : Fin 128)
    (p : SR3072.Idx) (h0 : (p 0).val = win1_2.index t (0 : Fin 2) * 2048 + k.val) (h1 : (p 1).val = win1_2.index t (1 : Fin 2) * 128 + b.val) :
    (iblk1 V c 2 t : Vec Ideal S2048x128 .bf16) (ix2 k b) = Q p := by
  show V c main_v6 (((cfg1.win 2).blk t).view.emb (ix2 k b)) = Q p
  rw [h6]
  refine congrArg Q (funext fun ax => Fin.ext ?_)
  match ax with
  | ⟨0, _⟩ => show win1_2.index t (0 : Fin 2) * 2048 + 1 * k.val = (p 0).val; omega
  | ⟨1, _⟩ => show win1_2.index t (1 : Fin 2) * 128 + 1 * b.val = (p 1).val; omega

/-- What a point writes back is its block of the attention matrix of the projected features. -/
theorem flushed1_eq (c : Dev nD) (t : Fin cfg1.N) (Q : SR3072.Idx → EReal) (h6 : V c main_v6 = Q) :
    (dat1 (F := Ideal) V q c).flushed 3 t = ((cfg1.win 3).blk t).view.read (Elt Ideal) (attMat Q) := by
  show (cfg1.win 3).cut (grid1.coords t) ((dat1 (F := Ideal) V q c).after 3 t) = _
  rw [after1_3]
  unfold out1_3
  rw [View.canon_unit_zero hz]
  simp only [View.ld_unit_zero (S := S512x128) hz, View.ld_unit_zero (S := S2048x128) hz]
  obtain ⟨e00, e01, e10, e11, e20, e21, b0, b1⟩ := idx_facts1 t
  funext j
  show k1_pay1 (F := Ideal) (iblk1 V c 0 t) (iblk1 V c 1 t) (iblk1 V c 2 t) j
    = attOf Q ((((cfg1.win 3).blk t).view.emb j) 0) ((((cfg1.win 3).blk t).view.emb j) 1)
  refine point_eq Q (iblk1 V c 0 t) (iblk1 V c 1 t) (iblk1 V c 2 t) (win1_3.index t (0 : Fin 2)) (win1_3.index t (1 : Fin 2))
    (fun a b p h0 h1 => blk0_read V c t Q h6 a b p (by omega) (by omega))
    (fun k b p h0 h1 => blk1_read V c t Q h6 k b p (by omega) (by omega))
    (fun k b p h0 h1 => blk2_read V c t Q h6 k b p (by omega) (by omega))
    j _ _ ?_ ?_
  · show win1_3.index t (0 : Fin 2) * 512 + 1 * (j 0).val = win1_3.index t (0 : Fin 2) * 512 + (j 0).val; omega
  · show win1_3.index t (1 : Fin 2) * 128 + 1 * (j 1).val = win1_3.index t (1 : Fin 2) * 128 + (j 1).val; omega

/-- An index of the output array is in a point's block iff each coordinate is in the block's range on its axis. -/
theorem mem_blk1 (t : Fin cfg1.N) (i : S8192x1024.Idx) :
    i ∈ ((cfg1.win 3).blk t).view.set ↔ ∀ a : Fin 2, win1_3.index t a * S512x128.size a ≤ (i a).val ∧ (i a).val < win1_3.index t a * S512x128.size a + S512x128.size a := by
  show i ∈ ((View.whole main_v7).slice (win1_3.rect t)).set ↔ _
  rw [View.set_slice_whole, Rect.mem_set_unit]
  exact Iff.rfl

/-- The blocks tile the output array: row `r`, column `cc` is in the block at `(r / 512, cc / 128)`. -/
theorem cover1 (i : S8192x1024.Idx) : ∃ t : Fin cfg1.N, (cfg1.win 3).flush t = true ∧ i ∈ ((cfg1.win 3).blk t).view.set := by
  have hi0 : (i 0).val < 8192 := (i 0).isLt
  have hi1 : (i 1).val < 1024 := (i 1).isLt
  obtain ⟨t, ht⟩ := idx_onto1 ⟨(i 0).val / 512, by omega⟩ ⟨(i 1).val / 128, by omega⟩
  have q0 : win1_3.index t (0 : Fin 2) = (i 0).val / 512 := congrFun ht 0
  have q1 : win1_3.index t (1 : Fin 2) = (i 1).val / 128 := congrFun ht 1
  refine ⟨t, flush1_3 t, ?_⟩
  rw [mem_blk1]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 128 ≤ (i 1).val ∧ (i 1).val < win1_3.index t (1 : Fin 2) * 128 + 128; omega

/-- The output array after the call's last grid point is the attention matrix of the projected features. -/
theorem final1 (c : Dev nD) (Q : SR3072.Idx → EReal) (h6 : V c main_v6 = Q) :
    (dat1 (F := Ideal) V q c).arrAt 3 cfg1.N = attMat Q :=
  (dat1 (F := Ideal) V q c).arrAt_eq_of_cover 3 (attMat Q) (fun t _ => flushed1_eq V q c t Q h6) cover1

end Cert.KernelIdeal.Val

end
-- ==== Proof.KIVal2.lean ====
/-
  Pallas call 2: the output array after the call's last grid point, as one function of the arrays the call is entered with,
  index by index, over the extended reals: row r, column e is (Σ_d A[r,d] · W[d,e]) + bias[0,e].
-/
import proofs.«132570_j36283883716940_2_alg».proof.Proof.KIBody2
import proofs.«132570_j36283883716940_2_alg».proof.Proof.Payloads
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Fr Cert.KernelIdeal.Pay
open Idealize.ShloMosaic Idealize.ShloMosaic.TcCoe Idealize.SL.Sem Idealize.ShloMosaic.ValueIdx
open Idealize.SL Idealize.SL.RA
open Idealize.ShloMosaic.Pipeline (Dat)

variable (V : (c : Dev nD) → (b : Ref sig .tc) → Buf (Elt Ideal) ((c : Thread nD τ).loc b))
variable (q : Fin cfg2.W → PosShare TreeShare)

theorem zeroOff2 : (![0, 0] : Fin 2 → Nat) = fun _ => 0 := funext fun a => by fin_cases a <;> rfl

/-- The rows-by-columns product plus the bias row, at every index of the [8192, 1024] array. -/
def proj2 (A : S8192x1024.Idx → EReal) (Wt : S1024x1024.Idx → EReal) (Bs : S1x1024.Idx → EReal) : S8192x1024.Idx → EReal :=
  fun i => (∑ d : Fin 1024, A (ix2 (i 0) d) * Wt (ix2 d (i 1))) + Bs (ix2 (0 : Fin 1) (i 1))

/-- The printed index maps over the grid: the row-block index of the input rows and of the output is the point, every other
    block index is zero. -/
theorem blockIdx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem pointLt2 (t : Fin cfg2.N) : t.val < 8 := lt_of_lt_of_eq t.isLt N_2

/-- Row `r` of the row block of point `t`. -/
def row2 (t : Fin cfg2.N) (r : Fin 1024) : Fin 8192 := ⟨t.val * 1024 + r.val, by have := pointLt2 t; omega⟩

/-- The input rows' block at point `t` is rows `1024 t … 1024 t + 1023` of its array. -/
theorem rowsBlk2 (c : Dev nD) (A : S8192x1024.Idx → EReal) (h7 : V c main_v7 = A) (t : Fin cfg2.N) (r : Fin 1024) (d : Fin 1024) :
    (iblk2 V c 0 t : Vec Ideal S1024x1024 .bf16) (ix2 r d) = A (ix2 (row2 t r) d) := by
  obtain ⟨e0, e1, -⟩ := blockIdx2 t
  show V c main_v7 (((cfg2.win 0).blk t).view.emb (ix2 r d)) = _
  rw [h7]
  refine congrArg A (funext fun a => Fin.ext ?_)
  match a with
  | ⟨0, _⟩ => show win2_0.index t (0 : Fin 2) * 1024 + 1 * r.val = t.val * 1024 + r.val; rw [e0]; omega
  | ⟨1, _⟩ => show win2_0.index t (1 : Fin 2) * 1024 + 1 * d.val = d.val; rw [e1]; omega

/-- The weight's block at every point is the whole weight. -/
theorem weightBlk2 (c : Dev nD) (Wt : S1024x1024.Idx → EReal) (h3 : V c main_v3 = Wt) (t : Fin cfg2.N) (d : Fin 1024) (e : Fin 1024) :
    (iblk2 V c 1 t : Vec Ideal S1024x1024 .bf16) (ix2 d e) = Wt (ix2 d e) := by
  obtain ⟨-, -, e0, e1, -⟩ := blockIdx2 t
  show V c main_v3 (((cfg2.win 1).blk t).view.emb (ix2 d e)) = _
  rw [h3]
  refine congrArg Wt (funext fun a => Fin.ext ?_)
  match a with
  | ⟨0, _⟩ => show win2_1.index t (0 : Fin 2) * 1024 + 1 * d.val = d.val; rw [e0]; omega
  | ⟨1, _⟩ => show win2_1.index t (1 : Fin 2) * 1024 + 1 * e.val = e.val; rw [e1]; omega

/-- The bias's block at every point is the whole bias row. -/
theorem biasBlk2 (c : Dev nD) (Bs : S1x1024.Idx → EReal) (h5 : V c main_v5 = Bs) (t : Fin cfg2.N) (u : Fin 1) (e : Fin 1024) :
    (iblk2 V c 2 t : Vec Ideal S1x1024 .f32) (ix2 u e) = Bs (ix2 u e) := by
  obtain ⟨-, -, -, -, e0, e1, -⟩ := blockIdx2 t
  show V c main_v5 (((cfg2.win 2).blk t).view.emb (ix2 u e)) = _
  rw [h5]
  refine congrArg Bs (funext fun a => Fin.ext ?_)
  match a with
  | ⟨0, _⟩ => show win2_2.index t (0 : Fin 2) * 1 + 1 * u.val = u.val; rw [e0]; omega
  | ⟨1, _⟩ => show win2_2.index t (1 : Fin 2) * 1024 + 1 * e.val = e.val; rw [e1]; omega

/-- The output's block at point `t` sits at rows `1024 t … 1024 t + 1023`. -/
theorem outEmb2 (t : Fin cfg2.N) (r : Fin 1024) (e : Fin 1024) :
    ((cfg2.win 3).blk t).view.emb (ix2 r e) = ix2 (row2 t r) e := by
  obtain ⟨-, -, -, -, -, -, e0, e1⟩ := blockIdx2 t
  refine funext fun a => Fin.ext ?_
  match a with
  | ⟨0, _⟩ => show win2_3.index t (0 : Fin 2) * 1024 + 1 * r.val = t.val * 1024 + r.val; rw [e0]; omega
  | ⟨1, _⟩ => show win2_3.index t (1 : Fin 2) * 1024 + 1 * e.val = e.val; rw [e1]; omega

/-- What point `t` writes back is block `t` of the product-plus-bias of the entry arrays. -/
theorem flushed2_eq (c : Dev nD) (A : S8192x1024.Idx → EReal) (Wt : S1024x1024.Idx → EReal) (Bs : S1x1024.Idx → EReal)
    (h7 : V c main_v7 = A) (h3 : V c main_v3 = Wt) (h5 : V c main_v5 = Bs) (t : Fin cfg2.N) :
    (dat2 (F := Ideal) V q c).flushed 3 t = ((cfg2.win 3).blk t).view.read (Elt Ideal) (proj2 A Wt Bs) := by
  show (cfg2.win 3).cut (grid2.coords t) ((dat2 V q c).after 3 t) = _
  rw [after2_3]
  unfold out2_3
  rw [View.canon_unit_zero zeroOff2]
  simp only [View.ld_unit_zero (S := S1024x1024) zeroOff2, View.ld_unit_zero (S := S1x1024) zeroOff2]
  funext j
  obtain ⟨r, e, rfl⟩ : ∃ (r : Fin 1024) (e : Fin 1024), j = ix2 r e := ⟨j 0, j 1, eq_ix2 j⟩
  show k2_pay1 (F := Ideal) (iblk2 V c 0 t) (iblk2 V c 1 t) (iblk2 V c 2 t) (ix2 r e)
    = proj2 A Wt Bs (((cfg2.win 3).blk t).view.emb (ix2 r e))
  refine (pay2_apply (iblk2 V c 0 t) (iblk2 V c 1 t) (iblk2 V c 2 t) r e).trans ?_
  rw [outEmb2]
  unfold proj2
  refine congrArg₂ (· + ·) (Finset.sum_congr rfl fun d _ => ?_) ?_
  · exact congrArg₂ (· * ·) (rowsBlk2 V c A h7 t r d) (weightBlk2 V c Wt h3 t d e)
  · exact biasBlk2 V c Bs h5 t 0 e

/-- An index of the output array is in point `t`'s block iff each coordinate is in the block's range on its axis. -/
theorem mem_blk2 (t : Fin cfg2.N) (i : S8192x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v8).slice (win2_3.rect t)).set ↔ _
  rw [View.set_slice_whole, Rect.mem_set_unit]
  exact Iff.rfl

/-- Every index of the output array is in the block of the point its row belongs to. -/
theorem cover2 (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  have hN : cfg2.N = 8 := N_2
  obtain ⟨t, ht⟩ : ∃ t : Fin cfg2.N, t.val = (i 0).val / 1024 := ⟨⟨(i 0).val / 1024, by rw [hN]; omega⟩, rfl⟩
  obtain ⟨-, -, -, -, -, -, e0, e1⟩ := blockIdx2 t
  refine ⟨t, flush2_3 t, ?_⟩
  rw [mem_blk2]
  intro a
  match a with
  | ⟨0, _⟩ => show win2_3.index t (0 : Fin 2) * 1024 ≤ (i 0).val ∧ (i 0).val < win2_3.index t (0 : Fin 2) * 1024 + 1024; rw [e0, ht]; omega
  | ⟨1, _⟩ => show win2_3.index t (1 : Fin 2) * 1024 ≤ (i 1).val ∧ (i 1).val < win2_3.index t (1 : Fin 2) * 1024 + 1024; rw [e1]; omega

/-- The output array after the last point: the product of the input rows with the weight, plus the bias row. -/
theorem final2 (c : Dev nD) (A : S8192x1024.Idx → EReal) (Wt : S1024x1024.Idx → EReal) (Bs : S1x1024.Idx → EReal)
    (h7 : V c main_v7 = A) (h3 : V c main_v3 = Wt) (h5 : V c main_v5 = Bs) :
    (dat2 (F := Ideal) V q c).arrAt 3 cfg2.N
      = fun i => (∑ d : Fin 1024, A (ix2 (i 0) d) * Wt (ix2 d (i 1))) + Bs (ix2 (0 : Fin 1) (i 1)) :=
  (dat2 (F := Ideal) V q c).arrAt_eq_of_cover 3 (proj2 A Wt Bs) (fun t _ => flushed2_eq V q c A Wt Bs h7 h3 h5 t) cover2

end Cert.KernelIdeal.Val

end
-- ==== Proof.KIHost.lean ====
/-
  The host operations around the three kernel calls, read as functions of the buffers they start from, over the
  extended reals (where a change of format is the identity):
  * the stretch before the calls views the input [4, 2048, 1024] as the matrix [8192, 1024] of its tokens' rows, keeps
    the two weight matrices, and views each bias vector as a one-row matrix;
  * the stretch after them views the [8192, 1024] result as [4, 2048, 1024].
-/
import proofs.«132570_j36283883716940_2_alg».proof.Proof.Gen.KernelIdeal.Launch
import proofs.«132570_j36283883716940_2_alg».proof.Proof.AttnFlat
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostVal

open Idealize.ShloMosaic Idealize.SL.Sem Idealize.ShloMosaic.ValueIdx
open Cert.KernelIdeal Cert.KernelIdeal.Gen

/-! ## The two views, index by index -/

/-- The [4, 2048, 1024] array viewed as [8192, 1024]: row r is token (r / 2048, r % 2048). -/
theorem reshape_rows (X : S4x2048x1024.Idx → EReal) :
    shapeCast S8192x1024 X shapeCasts_S4x2048x1024_S8192x1024 = Cert.AttnFlat.rowsOf X := by
  funext i
  obtain ⟨r, d, rfl⟩ : ∃ (r : Fin 8192) (d : Fin 1024), i = ix2 r d := ⟨i 0, i 1, eq_ix2 i⟩
  show _ = X (ix3 (Cert.AttnFlat.batchOf r) (Cert.AttnFlat.posOf r) d)
  refine shapeCast_apply X shapeCasts_S4x2048x1024_S8192x1024 (ix2 r d) _ ?_
  rw [Shape.rowMajor_val_three, Shape.rowMajor_val_two]
  show (r.val / 2048 * 2048 + r.val % 2048) * 1024 + d.val = r.val * 1024 + d.val
  omega

/-- The [8192, 1024] matrix viewed as [4, 2048, 1024]: token (b, s) is row b · 2048 + s. -/
theorem reshape_unflat (O : S8192x1024.Idx → EReal) :
    shapeCast S4x2048x1024 O shapeCasts_S8192x1024_S4x2048x1024 = Cert.AttnFlat.unflat O := by
  funext i
  obtain ⟨b, s, e, rfl⟩ : ∃ (b : Fin 4) (s : Fin 2048) (e : Fin 1024), i = ix3 b s e := ⟨i 0, i 1, i 2, eq_ix3 i⟩
  show _ = O (ix2 (Cert.AttnFlat.rowOf b s) e)
  refine shapeCast_apply O shapeCasts_S8192x1024_S4x2048x1024 (ix3 b s e) _ ?_
  rw [Shape.rowMajor_val_three, Shape.rowMajor_val_two]
  show (b.val * 2048 + s.val) * 1024 + e.val = (b.val * 2048 + s.val) * 1024 + e.val
  rfl

/-! ## The stretch before the calls -/

section
variable (W : Valuation τ sig (Elt Ideal))

/-- The first call's row operand is the input's matrix of rows. -/
theorem after0_v1 :
    (StableHlo.after (hostOps0 (F := Ideal)) W (Proc.devRef .tc main_v1) : S8192x1024.Idx → EReal)
      = Cert.AttnFlat.rowsOf (W (Proc.devRef .tc main_arg0) : S4x2048x1024.Idx → EReal) := by
  dsimp only [hostOps0]
  after_results
  show shapeCast S8192x1024 (W (Proc.devRef .tc main_arg0) : S4x2048x1024.Idx → EReal) shapeCasts_S4x2048x1024_S8192x1024 = _
  exact reshape_rows _

/-- The first weight matrix is kept. -/
theorem after0_v2 :
    (StableHlo.after (hostOps0 (F := Ideal)) W (Proc.devRef .tc main_v2) : S1024x3072.Idx → EReal)
      = (W (Proc.devRef .tc main_arg1) : S1024x3072.Idx → EReal) := by
  dsimp only [hostOps0]
  after_results
  rfl

/-- The second weight matrix is kept. -/
theorem after0_v3 :
    (StableHlo.after (hostOps0 (F := Ideal)) W (Proc.devRef .tc main_v3) : S1024x1024.Idx → EReal)
      = (W (Proc.devRef .tc main_arg3) : S1024x1024.Idx → EReal) := by
  dsimp only [hostOps0]
  after_results
  rfl

/-- The first bias as a one-row matrix. -/
theorem after0_v4 (e : Fin 3072) :
    (StableHlo.after (hostOps0 (F := Ideal)) W (Proc.devRef .tc main_v4) : S1x3072.Idx → EReal) (ix2 (0 : Fin 1) e)
      = (W (Proc.devRef .tc main_arg2) : S3072.Idx → EReal) (ix1 e) := by
  dsimp only [hostOps0]
  after_results
  show shapeCast S1x3072 (W (Proc.devRef .tc main_arg2) : S3072.Idx → EReal) shapeCasts_S3072_S1x3072 (ix2 (0 : Fin 1) e) = _
  exact shapeCast_a_1a_apply _ _ _ _

/-- The second bias as a one-row matrix. -/
theorem after0_v5 (e : Fin 1024) :
    (StableHlo.after (hostOps0 (F := Ideal)) W (Proc.devRef .tc main_v5) : S1x1024.Idx → EReal) (ix2 (0 : Fin 1) e)
      = (W (Proc.devRef .tc main_arg4) : S1024.Idx → EReal) (ix1 e) := by
  dsimp only [hostOps0]
  after_results
  show shapeCast S1x1024 (W (Proc.devRef .tc main_arg4) : S1024.Idx → EReal) shapeCasts_S1024_S1x1024 (ix2 (0 : Fin 1) e) = _
  exact shapeCast_a_1a_apply _ _ _ _

/-! ## The stretch after the calls -/

/-- The result is the last call's matrix viewed by tokens. -/
theorem after3_v9 :
    (StableHlo.after (hostOps3 (F := Ideal)) W (Proc.devRef .tc main_v9) : S4x2048x1024.Idx → EReal)
      = Cert.AttnFlat.unflat (W (Proc.devRef .tc main_v8) : S8192x1024.Idx → EReal) := by
  dsimp only [hostOps3]
  after_results
  show shapeCast S4x2048x1024 (W (Proc.devRef .tc main_v8) : S8192x1024.Idx → EReal) shapeCasts_S8192x1024_S4x2048x1024 = _
  exact reshape_unflat _

end

end Cert.KernelIdeal.HostVal

end
-- ==== Proof.AttnSpec.lean ====
/-
  The function both programs compute, stated once over the five argument arrays, index by index.

  With x : [4, 2048, 1024], w1 : [1024, 3072], b1 : [3072], w2 : [1024, 1024], b2 : [1024]:
  * the projected features   qkv b s e = (Σ_d x[b,s,d] · w1[d,e]) + b1[e]   (columns 0..1023 the queries, 1024..2047 the keys,
    2048..3071 the values; head h of 16 owns the 64 columns h·64 .. h·64+63 of each third);
  * the scores               score b h q k = Σ_d qkv b q (h·64+d) · qkv b k (1024+h·64+d);
  * their row maximum        smax b h q = max over k of score b h q k, taken from -∞;
  * the shifted exponentials wexp b h q k = exp (score b h q k − smax b h q), and their row sum wsum b h q;
  * attention, in two arrangements of one quotient:
      attK (sum first):      (Σ_k wexp b h q k · qkv b k (2048+h·64+d)) / wsum b h q
      attR (weights first):   Σ_k (wexp b h q k / wsum b h q) · qkv b k (2048+h·64+d);
  * the output               out b s e = (Σ_c att b s (c / 64) (c % 64) · w2[c,e]) + b2[e].
  The two arrangements agree whenever every entry of the arguments is a real number (module AttnLaw).
-/
import Idealize.ShloMosaic.PureOps.Ideal
import Idealize.ShloMosaic.Lib.ValueIdx

noncomputable section

open scoped BigOperators

namespace Cert.AttnSpec

open Idealize.ShloMosaic Idealize.ShloMosaic.ValueIdx

abbrev SX : Shape := ⟨3, ![4, 2048, 1024]⟩
abbrev SW1 : Shape := ⟨2, ![1024, 3072]⟩
abbrev SB1 : Shape := ⟨1, ![3072]⟩
abbrev SW2 : Shape := ⟨2, ![1024, 1024]⟩
abbrev SB2 : Shape := ⟨1, ![1024]⟩

/-- Column of the query third for head `h`, lane `d`. -/
def qcol (h : Fin 16) (d : Fin 64) : Fin 3072 := ⟨h.val * 64 + d.val, by omega⟩
/-- Column of the key third for head `h`, lane `d`. -/
def kcol (h : Fin 16) (d : Fin 64) : Fin 3072 := ⟨1024 + h.val * 64 + d.val, by omega⟩
/-- Column of the value third for head `h`, lane `d`. -/
def vcol (h : Fin 16) (d : Fin 64) : Fin 3072 := ⟨2048 + h.val * 64 + d.val, by omega⟩
/-- The head a merged column belongs to, and its lane inside the head. -/
def headOf (c : Fin 1024) : Fin 16 := ⟨c.val / 64, by omega⟩
def laneOf (c : Fin 1024) : Fin 64 := ⟨c.val % 64, by omega⟩

variable (x : SX.Idx → EReal) (w1 : SW1.Idx → EReal) (b1 : SB1.Idx → EReal) (w2 : SW2.Idx → EReal) (b2 : SB2.Idx → EReal)

/-- The projected features of token `(b, s)`, column `e`. -/
def qkv (b : Fin 4) (s : Fin 2048) (e : Fin 3072) : EReal :=
  (∑ d : Fin 1024, x (ix3 b s d) * w1 (ix2 d e)) + b1 (ix1 e)

/-- The score of query `q` against key `k` in head `h` of batch `b`. -/
def score (b : Fin 4) (h : Fin 16) (q k : Fin 2048) : EReal :=
  ∑ d : Fin 64, qkv x w1 b1 b q (qcol h d) * qkv x w1 b1 b k (kcol h d)

/-- The largest score of a query's row, taken from -∞. -/
def smax (b : Fin 4) (h : Fin 16) (q : Fin 2048) : EReal :=
  (Finset.univ : Finset (Fin 2048)).fold max (⊥ : EReal) (fun k => score x w1 b1 b h q k)

/-- The exponential of a score shifted by its row's maximum. -/
def wexp (b : Fin 4) (h : Fin 16) (q k : Fin 2048) : EReal :=
  Ideal.exp (score x w1 b1 b h q k - smax x w1 b1 b h q)

/-- The sum of a row's shifted exponentials. -/
def wsum (b : Fin 4) (h : Fin 16) (q : Fin 2048) : EReal :=
  ∑ k : Fin 2048, wexp x w1 b1 b h q k

/-- Attention with the weighted sum taken first and ONE division by the row sum. -/
def attK (b : Fin 4) (s : Fin 2048) (h : Fin 16) (d : Fin 64) : EReal :=
  Ideal.div (∑ k : Fin 2048, wexp x w1 b1 b h s k * qkv x w1 b1 b k (vcol h d)) (wsum x w1 b1 b h s)

/-- Attention with every weight normalised first. -/
def attR (b : Fin 4) (s : Fin 2048) (h : Fin 16) (d : Fin 64) : EReal :=
  ∑ k : Fin 2048, Ideal.div (wexp x w1 b1 b h s k) (wsum x w1 b1 b h s) * qkv x w1 b1 b k (vcol h d)

/-- The output projection of a merged-head attention array. -/
def outOf (att : Fin 4 → Fin 2048 → Fin 16 → Fin 64 → EReal) (b : Fin 4) (s : Fin 2048) (e : Fin 1024) : EReal :=
  (∑ c : Fin 1024, att b s (headOf c) (laneOf c) * w2 (ix2 c e)) + b2 (ix1 e)

/-- The whole result, sum-first arrangement. -/
def GK : SX.Idx → EReal := fun i => outOf w2 b2 (attK x w1 b1) (i 0) (i 1) (i 2)
/-- The whole result, weights-first arrangement. -/
def GR : SX.Idx → EReal := fun i => outOf w2 b2 (attR x w1 b1) (i 0) (i 1) (i 2)

end Cert.AttnSpec

end
-- ==== Proof.FlatSpec.lean ====
/-
  The computation over the flattened [8192, ·] matrices is the specification's sum-first form.

  A flattened row r = b · 2048 + s is token (b, s); row k of r's batch is b · 2048 + k; a merged column c = h · 64 + l
  is lane l of head h, whose query, key and value columns in the projected features are h·64 + d', 1024 + h·64 + d'
  and 2048 + c. With these identifications the projected features are `qkv`, the scores `score`, their maximum
  `smax`, the shifted exponentials `wexp` and their sum `wsum`, attention `attK` and the result `GK`.
-/
import proofs.«132570_j36283883716940_2_alg».proof.Proof.AttnSpec
import proofs.«132570_j36283883716940_2_alg».proof.Proof.AttnFlat

noncomputable section

open scoped BigOperators

namespace Cert.FlatSpec

open Idealize.ShloMosaic Idealize.ShloMosaic.ValueIdx Cert.AttnSpec Cert.AttnFlat

/-! ## Rows and columns -/

theorem batchOf_rowOf (b : Fin 4) (s : Fin 2048) : batchOf (rowOf b s) = b :=
  Fin.ext (by show (b.val * 2048 + s.val) / 2048 = b.val; omega)

theorem posOf_rowOf (b : Fin 4) (s : Fin 2048) : posOf (rowOf b s) = s :=
  Fin.ext (by show (b.val * 2048 + s.val) % 2048 = s.val; omega)

theorem keyRow_rowOf (b : Fin 4) (s k : Fin 2048) : keyRow (rowOf b s) k = rowOf b k :=
  Fin.ext (by show (b.val * 2048 + s.val) / 2048 * 2048 + k.val = b.val * 2048 + k.val; omega)

theorem qc_eq (c : Fin 1024) (d' : Fin 64) : qc c d' = qcol (headOf c) d' := rfl

theorem kc_eq (c : Fin 1024) (d' : Fin 64) : kc c d' = kcol (headOf c) d' := rfl

theorem vc_eq (c : Fin 1024) : vc c = vcol (headOf c) (laneOf c) :=
  Fin.ext (by show 2048 + c.val = 2048 + c.val / 64 * 64 + c.val % 64; omega)

/-! ## The projected features, the scores, attention -/

section
variable (x : SX.Idx → EReal) (w1 : SW1.Idx → EReal) (b1 : SB1.Idx → EReal)
  (b1r : (⟨2, ![1, 3072]⟩ : Shape).Idx → EReal) (hb1 : ∀ e : Fin 3072, b1r (ix2 (0 : Fin 1) e) = b1 (ix1 e))
include hb1

/-- The first projection at row b·2048+s is the projected features of token (b, s). -/
theorem proj_qkv (b : Fin 4) (s : Fin 2048) (e : Fin 3072) :
    proj (rowsOf x) w1 b1r (ix2 (rowOf b s) e) = qkv x w1 b1 b s e := by
  show (∑ d : Fin 1024, x (ix3 (batchOf (rowOf b s)) (posOf (rowOf b s)) d) * w1 (ix2 d e)) + b1r (ix2 (0 : Fin 1) e) = _
  rw [batchOf_rowOf, posOf_rowOf, hb1]
  rfl

/-- The flattened score is the specification's. -/
theorem sc_score (b : Fin 4) (s : Fin 2048) (c : Fin 1024) (k : Fin 2048) :
    sc (proj (rowsOf x) w1 b1r) (rowOf b s) c k = score x w1 b1 b (headOf c) s k := by
  unfold sc score
  refine Finset.sum_congr rfl fun d' _ => ?_
  rw [keyRow_rowOf, proj_qkv x w1 b1 b1r hb1, proj_qkv x w1 b1 b1r hb1]
  rfl

/-- The flattened attention is the sum-first arrangement. -/
theorem attOf_attK (b : Fin 4) (s : Fin 2048) (c : Fin 1024) :
    attOf (proj (rowsOf x) w1 b1r) (rowOf b s) c = attK x w1 b1 b s (headOf c) (laneOf c) := by
  have hs : sc (proj (rowsOf x) w1 b1r) (rowOf b s) c = fun k => score x w1 b1 b (headOf c) s k :=
    funext fun k => sc_score x w1 b1 b1r hb1 b s c k
  unfold attOf attK
  rw [hs]
  refine congrArg₂ Ideal.div (Finset.sum_congr rfl fun k _ => ?_) rfl
  rw [keyRow_rowOf, proj_qkv x w1 b1 b1r hb1, vc_eq]
  rfl

end

/-! ## The whole result -/

theorem flatOut_eq_GK (x : AttnSpec.SX.Idx → EReal) (w1 : AttnSpec.SW1.Idx → EReal) (b1 : AttnSpec.SB1.Idx → EReal)
    (w2 : AttnSpec.SW2.Idx → EReal) (b2 : AttnSpec.SB2.Idx → EReal)
    (b1r : (⟨2, ![1, 3072]⟩ : Shape).Idx → EReal) (b2r : (⟨2, ![1, 1024]⟩ : Shape).Idx → EReal)
    (hb1 : ∀ e : Fin 3072, b1r (ix2 (0 : Fin 1) e) = b1 (ix1 e)) (hb2 : ∀ e : Fin 1024, b2r (ix2 (0 : Fin 1) e) = b2 (ix1 e)) :
    Cert.AttnFlat.flatOut x w1 b1r w2 b2r = Cert.AttnSpec.GK x w1 b1 w2 b2 := by
  funext i
  obtain ⟨b, s, e, rfl⟩ : ∃ (b : Fin 4) (s : Fin 2048) (e : Fin 1024), i = ix3 b s e := ⟨i 0, i 1, i 2, eq_ix3 i⟩
  show (∑ c : Fin 1024, attOf (proj (rowsOf x) w1 b1r) (rowOf b s) c * w2 (ix2 c e)) + b2r (ix2 (0 : Fin 1) e)
      = (∑ c : Fin 1024, attK x w1 b1 b s (headOf c) (laneOf c) * w2 (ix2 c e)) + b2 (ix1 e)
  rw [hb2]
  exact congrArg (· + b2 (ix1 e)) (Finset.sum_congr rfl fun c _ => by rw [attOf_attK x w1 b1 b1r hb1])

end Cert.FlatSpec

end
-- ==== Proof.KIValue.lean ====
/-
  The kernel's result array after the run is the specification's sum-first arrangement `AttnSpec.GK` of the five argument arrays.

  Boundary by boundary: the first host stretch leaves the input as a matrix of 8192 rows, the two weight matrices as they are
  (a change of float format is the identity on the extended reals) and the two biases as one-row matrices; the projection
  call leaves the projected features `proj (rowsOf x) w1 b1`; the attention call leaves `attMat` of them; the output call
  leaves `proj` of that with `w2`, `b2`; the last host reshape reads the 8192 rows back as [4, 2048, ·]. That composite is
  `AttnFlat.flatOut`, which is `GK` (module FlatSpec).
-/
import proofs.«132570_j36283883716940_2_alg».proof.Proof.KIRun
import proofs.«132570_j36283883716940_2_alg».proof.Proof.KIVal0
import proofs.«132570_j36283883716940_2_alg».proof.Proof.KIVal1
import proofs.«132570_j36283883716940_2_alg».proof.Proof.KIVal2
import proofs.«132570_j36283883716940_2_alg».proof.Proof.KIHost
import proofs.«132570_j36283883716940_2_alg».proof.Proof.FlatSpec

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Cert.AttnFlat

variable (m : (ℓ : Loc nD τ sig) → Buf (Elt Ideal) ℓ) (ρ : Dev nD → PrngReg)

/-- The two biases as the one-row matrices the first host stretch leaves. -/
abbrev b1row (c : Dev nD) : S1x3072.Idx → EReal := W1 m ρ c (Proc.devRef .tc main_v4)
abbrev b2row (c : Dev nD) : S1x1024.Idx → EReal := W1 m ρ c (Proc.devRef .tc main_v5)

/-- The projected features after the projection call. -/
def feat (c : Dev nD) : S8192x3072.Idx → EReal :=
  proj (rowsOf (m ((c.tc : Thread nD τ).loc main_arg0))) (m ((c.tc : Thread nD τ).loc main_arg1)) (b1row m ρ c)

theorem v6_eq (c : Dev nD) : (V2 m ρ c main_v6 : S8192x3072.Idx → EReal) = feat m ρ c :=
  (W2_arr m ρ c 3).trans
    (final0 (V1 m ρ) qfull c (rowsOf (m ((c.tc : Thread nD τ).loc main_arg0))) (m ((c.tc : Thread nD τ).loc main_arg1)) (b1row m ρ c)
      (HostVal.after0_v1 (W0 m ρ c)) (HostVal.after0_v2 (W0 m ρ c)) rfl)

theorem v7_eq (c : Dev nD) : (V3 m ρ c main_v7 : S8192x1024.Idx → EReal) = attMat (feat m ρ c) :=
  (W3_v7 m ρ c).trans (final1 (V2 m ρ) q1 c (feat m ρ c) (v6_eq m ρ c))

theorem v3_eq (c : Dev nD) : (V3 m ρ c main_v3 : S1024x1024.Idx → EReal) = m ((c.tc : Thread nD τ).loc main_arg3) :=
  (W3_of_ne m ρ c main_v3 (by decide)).trans ((W2_of_ne m ρ c main_v3 (by decide)).trans (HostVal.after0_v3 (W0 m ρ c)))

theorem v5_eq (c : Dev nD) : (V3 m ρ c main_v5 : S1x1024.Idx → EReal) = b2row m ρ c :=
  (W3_of_ne m ρ c main_v5 (by decide)).trans (W2_of_ne m ρ c main_v5 (by decide))

theorem v8_eq (c : Dev nD) : (W4 m ρ c (Proc.devRef .tc main_v8) : S8192x1024.Idx → EReal)
    = proj (attMat (feat m ρ c)) (m ((c.tc : Thread nD τ).loc main_arg3)) (b2row m ρ c) :=
  (W4_arr m ρ c 3).trans
    (final2 (V3 m ρ) qfull c (attMat (feat m ρ c)) (m ((c.tc : Thread nD τ).loc main_arg3)) (b2row m ρ c)
      (v7_eq m ρ c) (v3_eq m ρ c) (v5_eq m ρ c))

/-- The result buffer at the last boundary is the specification of the arguments. -/
theorem result_eq (c : Dev nD) : (W5 m ρ c (Proc.devRef .tc main_v9) : S4x2048x1024.Idx → EReal)
    = Cert.AttnSpec.GK (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  refine (HostVal.after3_v9 (W4 m ρ c)).trans ?_
  rw [v8_eq]
  exact Cert.FlatSpec.flatOut_eq_GK _ _ _ _ _ (b1row m ρ c) (b2row m ρ c)
    (fun e => HostVal.after0_v4 (W0 m ρ c) e) (fun e => HostVal.after0_v5 (W0 m ρ c) e)

/-- The run with the result named: every weakly fair execution terminates with the result array at the specification of the
    arguments and the arguments unchanged. -/
theorem run : θ_run defs (onTc (τ := τ) (main (F := Ideal))) ⟨m, fun _ => 0, ρ⟩ (fun r => ∀ c : Dev nD,
      r.2.mem ((c.tc : Thread nD τ).loc main_v9) = Cert.AttnSpec.GK (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v9 (by decide))).trans (result_eq m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_main m ρ)

end Cert.KernelIdeal.Val

end
-- ==== Proof.RefValue.lean ====
/-
  The reference's result, read one operation at a time, is the weights-first arrangement `AttnSpec.GR` of the argument arrays.
-/
import proofs.«132570_j36283883716940_2_alg».proof.Proof.Gen.ReferenceIdeal.Read
import proofs.«132570_j36283883716940_2_alg».proof.Proof.AttnSpec
import Idealize.ShloMosaic.Lib.ValueIdx
import Idealize.ShloMosaic.Lib.Pipeline.Value
import Idealize.ShloMosaic.PureOps.Ideal.Laws

noncomputable section

open scoped BigOperators

namespace Cert.RefValue

open Idealize.ShloMosaic Idealize.ShloMosaic.ValueIdx Cert.ReferenceIdeal Cert.ReferenceIdeal.Read Cert.AttnSpec

/-- The five argument arrays' types. -/
abbrev A0 := (⟨S4x2048x1024, .f32⟩ : BufTy).Contents (Elt Ideal)
abbrev A1 := (⟨S1024x3072, .f32⟩ : BufTy).Contents (Elt Ideal)
abbrev A2 := (⟨S3072, .f32⟩ : BufTy).Contents (Elt Ideal)
abbrev A3 := (⟨S1024x1024, .f32⟩ : BufTy).Contents (Elt Ideal)
abbrev A4 := (⟨S1024, .f32⟩ : BufTy).Contents (Elt Ideal)

/-! ## The projected features -/

theorem lidx_v0 (b : Fin 4) (s : Fin 2048) (e : Fin 3072) (k : Fin 1024) :
    lidx_main_v0 (ix3 b s e) k = ix3 b s k :=
  funext fun a => Fin.ext (by match a with | ⟨0, _⟩ => rfl | ⟨1, _⟩ => rfl | ⟨2, _⟩ => rfl)

theorem ridx_v0 (b : Fin 4) (s : Fin 2048) (e : Fin 3072) (k : Fin 1024) :
    ridx_main_v0 (ix3 b s e) k = ix2 k e :=
  funext fun a => Fin.ext (by match a with | ⟨0, _⟩ => rfl | ⟨1, _⟩ => rfl)

theorem idx_v1v2 (b : Fin 4) (s : Fin 2048) (e : Fin 3072) :
    idx_main_v1 (idx_main_v2 (ix3 b s e)) = ix1 e :=
  funext fun a => Fin.ext (by match a with | ⟨0, _⟩ => rfl)

/-- The projection with its bias, at token `(b, s)` and column `e`. -/
theorem v3_eq (x0 : A0) (x1 : A1) (x2 : A2) (b : Fin 4) (s : Fin 2048) (e : Fin 3072) :
    val_main_v3 (F := Ideal) x0 x1 x2 (ix3 b s e) = qkv x0 x1 x2 b s e := by
  rw [val_main_v3_apply, val_main_v0_apply, val_main_v2_apply, val_main_v1_apply, idx_v1v2]
  unfold qkv
  refine congrArg₂ (· + ·) (Finset.sum_congr rfl fun k _ => ?_) rfl
  rw [lidx_v0, ridx_v0]

/-! ## The three thirds, split by head -/

theorem idx_v8 (b : Fin 4) (h : Fin 16) (s : Fin 2048) (d : Fin 64) :
    idx_main_v8 (ix4 b h s d) = ix4 b s h d :=
  funext fun a => Fin.ext (by match a with | ⟨0, _⟩ => rfl | ⟨1, _⟩ => rfl | ⟨2, _⟩ => rfl | ⟨3, _⟩ => rfl)

theorem idx_v10 (b : Fin 4) (h : Fin 16) (s : Fin 2048) (d : Fin 64) :
    idx_main_v10 (ix4 b h s d) = ix4 b s h d :=
  funext fun a => Fin.ext (by match a with | ⟨0, _⟩ => rfl | ⟨1, _⟩ => rfl | ⟨2, _⟩ => rfl | ⟨3, _⟩ => rfl)

theorem idx_v12 (b : Fin 4) (h : Fin 16) (s : Fin 2048) (d : Fin 64) :
    idx_main_v12 (ix4 b h s d) = ix4 b s h d :=
  funext fun a => Fin.ext (by match a with | ⟨0, _⟩ => rfl | ⟨1, _⟩ => rfl | ⟨2, _⟩ => rfl | ⟨3, _⟩ => rfl)

/-- The merged column of head `h`, lane `d`. -/
def mcol (h : Fin 16) (d : Fin 64) : Fin 1024 := ⟨h.val * 64 + d.val, by omega⟩

theorem idx_v7 (b : Fin 4) (s : Fin 2048) (h : Fin 16) (d : Fin 64) :
    idx_main_v7 (ix4 b s h d) = ix3 b s (mcol h d) :=
  funext fun a => Fin.ext (by
    have hb := b.isLt; have hs := s.isLt; have hh := h.isLt; have hd := d.isLt
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => show (((b.val * 2048 + s.val) * 16 + h.val) * 64 + d.val) % 1024 = h.val * 64 + d.val; omega)

theorem idx_v9 (b : Fin 4) (s : Fin 2048) (h : Fin 16) (d : Fin 64) :
    idx_main_v9 (ix4 b s h d) = ix3 b s (mcol h d) := idx_v7 b s h d

theorem idx_v11 (b : Fin 4) (s : Fin 2048) (h : Fin 16) (d : Fin 64) :
    idx_main_v11 (ix4 b s h d) = ix3 b s (mcol h d) := idx_v7 b s h d

theorem idx_v4 (b : Fin 4) (s : Fin 2048) (h : Fin 16) (d : Fin 64) :
    idx_main_v4 (ix3 b s (mcol h d)) = ix3 b s (qcol h d) :=
  funext fun a => Fin.ext (by match a with | ⟨0, _⟩ => rfl | ⟨1, _⟩ => rfl | ⟨2, _⟩ => rfl)

theorem idx_v5 (b : Fin 4) (s : Fin 2048) (h : Fin 16) (d : Fin 64) :
    idx_main_v5 (ix3 b s (mcol h d)) = ix3 b s (kcol h d) :=
  funext fun a => Fin.ext (by
    match a with
    | ⟨0, _⟩ => rfl
    | ⟨1, _⟩ => rfl
    | ⟨2, _⟩ => show 1024 + (h.val * 64 + d.val) = 1024 + h.val * 64 + d.val; omega)

theorem idx_v6 (b : Fin 4) (s : Fin 2048) (h : Fin 16) (d : Fin 64) :
    idx_main_v6 (ix3 b s (mcol h d)) = ix3 b s (vcol h d) :=
  funext fun a => Fin.ext (by
    match a with
    | ⟨0, _⟩ => rfl
    | ⟨1, _⟩ => rfl
    | ⟨2, _⟩ => show 2048 + (h.val * 64 + d.val) = 2048 + h.val * 64 + d.val; omega)

/-- The queries of head `h`. -/
theorem v8_eq (x0 : A0) (x1 : A1) (x2 : A2) (b : Fin 4) (h : Fin 16) (s : Fin 2048) (d : Fin 64) :
    val_main_v8 (F := Ideal) x0 x1 x2 (ix4 b h s d) = qkv x0 x1 x2 b s (qcol h d) := by
  rw [val_main_v8_apply, idx_v8, val_main_v7_apply, idx_v7, val_main_v4_apply, idx_v4, v3_eq]

/-- The keys of head `h`. -/
theorem v10_eq (x0 : A0) (x1 : A1) (x2 : A2) (b : Fin 4) (h : Fin 16) (s : Fin 2048) (d : Fin 64) :
    val_main_v10 (F := Ideal) x0 x1 x2 (ix4 b h s d) = qkv x0 x1 x2 b s (kcol h d) := by
  rw [val_main_v10_apply, idx_v10, val_main_v9_apply, idx_v9, val_main_v5_apply, idx_v5, v3_eq]

/-- The values of head `h`. -/
theorem v12_eq (x0 : A0) (x1 : A1) (x2 : A2) (b : Fin 4) (h : Fin 16) (s : Fin 2048) (d : Fin 64) :
    val_main_v12 (F := Ideal) x0 x1 x2 (ix4 b h s d) = qkv x0 x1 x2 b s (vcol h d) := by
  rw [val_main_v12_apply, idx_v12, val_main_v11_apply, idx_v11, val_main_v6_apply, idx_v6, v3_eq]

/-! ## The scores -/

theorem lidx_v13 (b : Fin 4) (h : Fin 16) (q k : Fin 2048) (d : Fin 64) :
    lidx_main_v13 (ix4 b h q k) d = ix4 b h q d :=
  funext fun a => Fin.ext (by match a with | ⟨0, _⟩ => rfl | ⟨1, _⟩ => rfl | ⟨2, _⟩ => rfl | ⟨3, _⟩ => rfl)

theorem ridx_v13 (b : Fin 4) (h : Fin 16) (q k : Fin 2048) (d : Fin 64) :
    ridx_main_v13 (ix4 b h q k) d = ix4 b h k d :=
  funext fun a => Fin.ext (by match a with | ⟨0, _⟩ => rfl | ⟨1, _⟩ => rfl | ⟨2, _⟩ => rfl | ⟨3, _⟩ => rfl)

/-- The score of query `q` against key `k`. -/
theorem v13_eq (x0 : A0) (x1 : A1) (x2 : A2) (b : Fin 4) (h : Fin 16) (q k : Fin 2048) :
    val_main_v13 (F := Ideal) x0 x1 x2 (ix4 b h q k) = score x0 x1 x2 b h q k := by
  rw [val_main_v13_apply]
  unfold score
  refine Finset.sum_congr rfl fun d _ => ?_
  rw [lidx_v13, ridx_v13, v8_eq, v10_eq]

/-! ## The row maximum -/

/-- A row index with the key coordinate put back. -/
theorem lift_row (hR : S4x16x2048x2048.Reduces [3] S4x16x2048) (b : Fin 4) (h : Fin 16) (q : Fin 2048)
    (k : Fin (S4x16x2048x2048.size 3)) :
    hR.lift (ix3 b h q) k = ix4 b h q (⟨k.val, k.isLt⟩ : Fin 2048) := by
  funext c; apply Fin.ext
  fin_cases c <;> rfl

/-- The word `0xFF800000` is `-∞`. -/
theorem negInf_eq_bot : Ideal.ofBits .f32 0xFF800000#32 = (⊥ : EReal) := by
  simp [Ideal.ofBits, Ideal.ieee]

/-- The maximum of a query's row of scores, folded from `-∞`. -/
theorem v14_eq (x0 : A0) (x1 : A1) (x2 : A2) (b : Fin 4) (h : Fin 16) (q : Fin 2048) :
    val_main_v14 (F := Ideal) x0 x1 x2 (ix3 b h q) = smax x0 x1 x2 b h q := by
  have hR : S4x16x2048x2048.Reduces [3] S4x16x2048 := by decide
  unfold val_main_v14
  generalize hy : val_main_v13 (F := Ideal) x0 x1 x2 = y
  rw [Host.reduce_eq_fold_single (FloatOps.maximumf (F := Ideal) (φ := .f32)) y _
    Facts₀.reducesTo_S4x16x2048x2048_S4x16x2048_d3 hR Facts₀.h_S_]
  have hf : (y ∘ hR.lift (ix3 b h q)) = fun k : Fin 2048 => score x0 x1 x2 b h q k :=
    funext fun k => by
      show y (hR.lift (ix3 b h q) k) = _
      rw [lift_row, ← hy, v13_eq]
      rfl
  have hinit : val_main_cst (F := Ideal) (Shape.Idx.first Facts₀.h_S_) = (⊥ : EReal) := negInf_eq_bot
  rw [hf, hinit]
  rfl

/-- The maximum against a row of `-∞` is the maximum. -/
theorem v16_eq (x0 : A0) (x1 : A1) (x2 : A2) (b : Fin 4) (h : Fin 16) (q : Fin 2048) :
    val_main_v16 (F := Ideal) x0 x1 x2 (ix3 b h q) = smax x0 x1 x2 b h q := by
  rw [val_main_v16_apply, val_main_v15_apply, val_main_cst_0_apply, v14_eq]
  show max (Ideal.ofBits .f32 0xFF800000#32) _ = _
  rw [negInf_eq_bot]
  exact max_eq_right bot_le

/-! ## The shifted exponentials and their row sum -/

theorem idx_v17v18 (b : Fin 4) (h : Fin 16) (q k : Fin 2048) :
    idx_main_v17 (idx_main_v18 (ix4 b h q k)) = ix3 b h q :=
  funext fun a => Fin.ext (by match a with | ⟨0, _⟩ => rfl | ⟨1, _⟩ => rfl | ⟨2, _⟩ => rfl)

/-- The exponential of a score less its row's maximum. -/
theorem v20_eq (x0 : A0) (x1 : A1) (x2 : A2) (b : Fin 4) (h : Fin 16) (q k : Fin 2048) :
    val_main_v20 (F := Ideal) x0 x1 x2 (ix4 b h q k) = wexp x0 x1 x2 b h q k := by
  rw [val_main_v20_apply, val_main_v19_apply, val_main_v18_apply, val_main_v17_apply, idx_v17v18, v13_eq, v16_eq]
  rfl

theorem idx_v21 (b : Fin 4) (h : Fin 16) (q k : Fin 2048) :
    idx_main_v21 (ix3 b h q) k = ix4 b h q k :=
  funext fun a => Fin.ext (by match a with | ⟨0, _⟩ => rfl | ⟨1, _⟩ => rfl | ⟨2, _⟩ => rfl | ⟨3, _⟩ => rfl)

/-- The sum of a row's shifted exponentials. -/
theorem v21_eq (x0 : A0) (x1 : A1) (x2 : A2) (b : Fin 4) (h : Fin 16) (q : Fin 2048) :
    val_main_v21 (F := Ideal) x0 x1 x2 (ix3 b h q) = wsum x0 x1 x2 b h q := by
  rw [val_main_v21_apply, val_main_cst_1_apply]
  show Ideal.ofBits .f32 0x00000000#32 + _ = _
  rw [Ideal.ofBits_zero_f32, zero_add]
  unfold wsum
  refine Finset.sum_congr rfl fun k _ => ?_
  rw [idx_v21, v20_eq]

theorem idx_v22v23 (b : Fin 4) (h : Fin 16) (q k : Fin 2048) :
    idx_main_v22 (idx_main_v23 (ix4 b h q k)) = ix3 b h q :=
  funext fun a => Fin.ext (by match a with | ⟨0, _⟩ => rfl | ⟨1, _⟩ => rfl | ⟨2, _⟩ => rfl)

/-- A weight: the shifted exponential over its row's sum. -/
theorem v24_eq (x0 : A0) (x1 : A1) (x2 : A2) (b : Fin 4) (h : Fin 16) (q k : Fin 2048) :
    val_main_v24 (F := Ideal) x0 x1 x2 (ix4 b h q k)
      = Ideal.div (wexp x0 x1 x2 b h q k) (wsum x0 x1 x2 b h q) := by
  rw [val_main_v24_apply, val_main_v23_apply, val_main_v22_apply, idx_v22v23, v20_eq, v21_eq]
  rfl

/-! ## Attention, weights first -/

theorem lidx_v25 (b : Fin 4) (h : Fin 16) (s : Fin 2048) (d : Fin 64) (k : Fin 2048) :
    lidx_main_v25 (ix4 b h s d) k = ix4 b h s k :=
  funext fun a => Fin.ext (by match a with | ⟨0, _⟩ => rfl | ⟨1, _⟩ => rfl | ⟨2, _⟩ => rfl | ⟨3, _⟩ => rfl)

theorem ridx_v25 (b : Fin 4) (h : Fin 16) (s : Fin 2048) (d : Fin 64) (k : Fin 2048) :
    ridx_main_v25 (ix4 b h s d) k = ix4 b h k d :=
  funext fun a => Fin.ext (by match a with | ⟨0, _⟩ => rfl | ⟨1, _⟩ => rfl | ⟨2, _⟩ => rfl | ⟨3, _⟩ => rfl)

/-- The weighted sum of the values, every weight normalised first. -/
theorem v25_eq (x0 : A0) (x1 : A1) (x2 : A2) (b : Fin 4) (h : Fin 16) (s : Fin 2048) (d : Fin 64) :
    val_main_v25 (F := Ideal) x0 x1 x2 (ix4 b h s d) = attR x0 x1 x2 b s h d := by
  rw [val_main_v25_apply]
  unfold attR
  refine Finset.sum_congr rfl fun k _ => ?_
  rw [lidx_v25, ridx_v25, v24_eq, v12_eq]

theorem idx_v26 (b : Fin 4) (s : Fin 2048) (h : Fin 16) (d : Fin 64) :
    idx_main_v26 (ix4 b s h d) = ix4 b h s d :=
  funext fun a => Fin.ext (by match a with | ⟨0, _⟩ => rfl | ⟨1, _⟩ => rfl | ⟨2, _⟩ => rfl | ⟨3, _⟩ => rfl)

theorem idx_v27 (b : Fin 4) (s : Fin 2048) (c : Fin 1024) :
    idx_main_v27 (ix3 b s c) = ix4 b s (headOf c) (laneOf c) :=
  funext fun a => Fin.ext (by
    have hb := b.isLt; have hs := s.isLt; have hc := c.isLt
    match a with
    | ⟨0, _⟩ => show ((b.val * 2048 + s.val) * 1024 + c.val) / 2097152 = b.val; omega
    | ⟨1, _⟩ => show ((b.val * 2048 + s.val) * 1024 + c.val) / 1024 % 2048 = s.val; omega
    | ⟨2, _⟩ => show ((b.val * 2048 + s.val) * 1024 + c.val) / 64 % 16 = c.val / 64; omega
    | ⟨3, _⟩ => show ((b.val * 2048 + s.val) * 1024 + c.val) % 64 = c.val % 64; omega)

/-- The heads merged back into one row of 1024 columns. -/
theorem v27_eq (x0 : A0) (x1 : A1) (x2 : A2) (b : Fin 4) (s : Fin 2048) (c : Fin 1024) :
    val_main_v27 (F := Ideal) x0 x1 x2 (ix3 b s c) = attR x0 x1 x2 b s (headOf c) (laneOf c) := by
  rw [val_main_v27_apply, idx_v27, val_main_v26_apply, idx_v26, v25_eq]

/-! ## The output projection -/

theorem lidx_v28 (b : Fin 4) (s : Fin 2048) (e : Fin 1024) (k : Fin 1024) :
    lidx_main_v28 (ix3 b s e) k = ix3 b s k :=
  funext fun a => Fin.ext (by match a with | ⟨0, _⟩ => rfl | ⟨1, _⟩ => rfl | ⟨2, _⟩ => rfl)

theorem ridx_v28 (b : Fin 4) (s : Fin 2048) (e : Fin 1024) (k : Fin 1024) :
    ridx_main_v28 (ix3 b s e) k = ix2 k e :=
  funext fun a => Fin.ext (by match a with | ⟨0, _⟩ => rfl | ⟨1, _⟩ => rfl)

theorem idx_v29v30 (b : Fin 4) (s : Fin 2048) (e : Fin 1024) :
    idx_main_v29 (idx_main_v30 (ix3 b s e)) = ix1 e :=
  funext fun a => Fin.ext (by match a with | ⟨0, _⟩ => rfl)

/-- The result at token `(b, s)`, column `e`. -/
theorem v31_eq (x0 : A0) (x1 : A1) (x2 : A2) (x3 : A3) (x4 : A4) (b : Fin 4) (s : Fin 2048) (e : Fin 1024) :
    val_main_v31 (F := Ideal) x0 x1 x2 x3 x4 (ix3 b s e) = outOf x3 x4 (attR x0 x1 x2) b s e := by
  rw [val_main_v31_apply, val_main_v28_apply, val_main_v30_apply, val_main_v29_apply, idx_v29v30]
  unfold outOf
  refine congrArg₂ (· + ·) (Finset.sum_congr rfl fun k _ => ?_) rfl
  rw [lidx_v28, ridx_v28, v27_eq]

/-- The reference's result is the weights-first arrangement of the specification. -/
theorem ref_is_GR (x0 : (⟨Cert.ReferenceIdeal.S4x2048x1024, .f32⟩ : BufTy).Contents (Elt Ideal))
    (x1 : (⟨Cert.ReferenceIdeal.S1024x3072, .f32⟩ : BufTy).Contents (Elt Ideal))
    (x2 : (⟨Cert.ReferenceIdeal.S3072, .f32⟩ : BufTy).Contents (Elt Ideal))
    (x3 : (⟨Cert.ReferenceIdeal.S1024x1024, .f32⟩ : BufTy).Contents (Elt Ideal))
    (x4 : (⟨Cert.ReferenceIdeal.S1024, .f32⟩ : BufTy).Contents (Elt Ideal)) :
    Cert.ReferenceIdeal.Read.val_main_v31 (F := Ideal) x0 x1 x2 x3 x4 = Cert.AttnSpec.GR x0 x1 x2 x3 x4 := by
  funext i
  obtain ⟨b, s, e, rfl⟩ : ∃ (b : Fin 4) (s : Fin 2048) (e : Fin 1024), i = ix3 b s e :=
    ⟨i 0, i 1, i 2, ValueIdx.eq_ix3 i⟩
  exact v31_eq x0 x1 x2 x3 x4 b s e

end Cert.RefValue

end
-- ==== Proof.LibRealSums.lean ====
/-
  General facts about finite sums of real numbers inside the extended reals, used to move a computation
  whose every operand is a real number from the extended reals to the reals:

  * the inclusion of the reals commutes with finite sums (`coe_sum`);
  * a maximum taken from `⊥` over a nonempty finite family of reals is a real (`fold_max_real`);
  * the quotient of two reals with a nonzero divisor is the real quotient (`div_coe_coe`);
  * a sum over `Fin (m * n)` is the sum over `m` consecutive blocks of `n` terms (`sum_fin_blocks`),
    and a sum over a range of blocks is the same as the sum over `Fin m` (`sum_range_eq_fin`);
  * a softmax-weighted average does not depend on the shift: for every real `μ`,
    `∑ j, (exp (s j - μ) / ∑ j', exp (s j' - μ)) * b j = (∑ j, exp (s j) * b j) / ∑ j, exp (s j)`
    (`softmax_weighted`).
-/
import Idealize.ShloMosaic.PureOps.Ideal

noncomputable section

open scoped BigOperators

namespace Cert.LibRealSums

open Idealize.ShloMosaic

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum, taken from `⊥`, of a nonempty finite family of reals is a real. -/
theorem fold_max_real {ι : Type*} (s : Finset ι) (hs : s.Nonempty) (f : ι → ℝ) :
    ∃ r : ℝ, s.fold max (⊥ : EReal) (fun i => (f i : EReal)) = (r : EReal) := by
  classical
  induction s using Finset.induction_on with
  | empty => exact absurd hs Finset.not_nonempty_empty
  | insert a s ha ih =>
    rw [Finset.fold_insert ha]
    by_cases hs' : s.Nonempty
    · obtain ⟨r, hr⟩ := ih hs'
      rw [hr]
      exact ⟨max (f a) r, (EReal.coe_strictMono.monotone.map_max).symm⟩
    · rw [Finset.not_nonempty_iff_eq_empty.mp hs', Finset.fold_empty]
      exact ⟨f a, max_eq_left bot_le⟩

/-- The extended reals' quotient of two reals, the divisor not zero, is the real quotient. -/
theorem div_coe_coe (a b : ℝ) (hb : b ≠ 0) : Ideal.div (a : EReal) (b : EReal) = ((a / b : ℝ) : EReal) := by
  rw [Ideal.div_coe hb, ← EReal.coe_mul, mul_one_div]

/-- A sum over a range of naturals is the sum over the corresponding `Fin`. -/
theorem sum_range_eq_fin {M : Type*} [AddCommMonoid M] (m : ℕ) (f : ℕ → M) :
    ∑ s ∈ Finset.range m, f s = ∑ s : Fin m, f s.val :=
  (Fin.sum_univ_eq_sum_range f m).symm

/-- A sum over `m * n` consecutive indices is the sum over `m` blocks of `n` consecutive indices. -/
theorem sum_fin_blocks {M : Type*} [AddCommMonoid M] (m n : ℕ) (g : ℕ → M) :
    ∑ j : Fin (m * n), g j.val = ∑ s : Fin m, ∑ jj : Fin n, g (n * s.val + jj.val) := by
  rw [Fin.sum_univ_eq_sum_range g (m * n), Fin.sum_univ_eq_sum_range (fun s => ∑ jj : Fin n, g (n * s + jj.val)) m]
  induction m with
  | zero => simp
  | succ m ih =>
    rw [Finset.sum_range_succ, ← ih, Nat.succ_mul, Finset.sum_range_add, Nat.mul_comm m n,
      Fin.sum_univ_eq_sum_range (fun x => g (n * m + x)) n]

/-- A softmax-weighted average does not depend on the shift subtracted inside the exponentials. -/
theorem softmax_weighted {ι : Type*} [Fintype ι] (s b : ι → ℝ) (μ : ℝ) :
    ∑ j, (Real.exp (s j - μ) / ∑ j', Real.exp (s j' - μ)) * b j
      = (∑ j, Real.exp (s j) * b j) / ∑ j, Real.exp (s j) := by
  have hμ : Real.exp μ ≠ 0 := (Real.exp_pos μ).ne'
  have h1 : ∀ j, Real.exp (s j - μ) = Real.exp (s j) / Real.exp μ := fun j => Real.exp_sub _ _
  simp only [h1]
  have h2 : ∑ j', Real.exp (s j') / Real.exp μ = (∑ j', Real.exp (s j')) / Real.exp μ :=
    (Finset.sum_div Finset.univ (fun j' => Real.exp (s j')) (Real.exp μ)).symm
  rw [h2, Finset.sum_div Finset.univ (fun j => Real.exp (s j) * b j)]
  refine Finset.sum_congr rfl fun j _ => ?_
  rw [div_div_div_cancel_right₀ hμ, div_mul_eq_mul_div]

end Cert.LibRealSums

end
-- ==== Proof.AttnLaw.lean ====
/-
  The two arrangements of the attention quotient agree when every entry of x, w1, b1 is a real number.

  With real arguments every projected feature is a real (a finite sum of products of reals plus a real), so every score
  is a real, the row maximum (over a nonempty row) is a real, every shifted exponential is a positive real, and the row
  sum L is a positive real.  Both arrangements are then computed inside the reals, where
  (Σ_k e_k · v_k) / L = Σ_k (e_k / L) · v_k.
-/
import proofs.«132570_j36283883716940_2_alg».proof.Proof.AttnSpec
import proofs.«132570_j36283883716940_2_alg».proof.Proof.LibRealSums

noncomputable section

open scoped BigOperators

namespace Cert.AttnLaw

open Idealize.ShloMosaic Idealize.ShloMosaic.ValueIdx Cert.AttnSpec Cert.LibRealSums

variable {x : SX.Idx → EReal} {w1 : SW1.Idx → EReal} {b1 : SB1.Idx → EReal}

/-- Every projected feature is a real. -/
theorem qkv_real (hx : ∀ i, ∃ r : ℝ, x i = (r : EReal)) (hw1 : ∀ i, ∃ r : ℝ, w1 i = (r : EReal))
    (hb1 : ∀ i, ∃ r : ℝ, b1 i = (r : EReal)) (b : Fin 4) (s : Fin 2048) (e : Fin 3072) :
    ∃ r : ℝ, qkv x w1 b1 b s e = (r : EReal) := by
  choose xr hxr using hx
  choose wr hwr using hw1
  choose br hbr using hb1
  refine ⟨(∑ d : Fin 1024, xr (ix3 b s d) * wr (ix2 d e)) + br (ix1 e), ?_⟩
  unfold qkv
  simp only [hxr, hwr, hbr]
  rw [EReal.coe_add, coe_sum]
  simp only [EReal.coe_mul]

/-- Every score is a real. -/
theorem score_real (hx : ∀ i, ∃ r : ℝ, x i = (r : EReal)) (hw1 : ∀ i, ∃ r : ℝ, w1 i = (r : EReal))
    (hb1 : ∀ i, ∃ r : ℝ, b1 i = (r : EReal)) (b : Fin 4) (h : Fin 16) (q k : Fin 2048) :
    ∃ r : ℝ, score x w1 b1 b h q k = (r : EReal) := by
  choose qr hqr using qkv_real hx hw1 hb1
  refine ⟨∑ d : Fin 64, qr b q (qcol h d) * qr b k (kcol h d), ?_⟩
  unfold score
  simp only [hqr]
  rw [coe_sum]
  simp only [EReal.coe_mul]

/-- Every row maximum is a real: the row is not empty. -/
theorem smax_real (hx : ∀ i, ∃ r : ℝ, x i = (r : EReal)) (hw1 : ∀ i, ∃ r : ℝ, w1 i = (r : EReal))
    (hb1 : ∀ i, ∃ r : ℝ, b1 i = (r : EReal)) (b : Fin 4) (h : Fin 16) (q : Fin 2048) :
    ∃ r : ℝ, smax x w1 b1 b h q = (r : EReal) := by
  choose sr hsr using score_real hx hw1 hb1
  unfold smax
  simp only [hsr]
  exact fold_max_real Finset.univ ⟨(0 : Fin 2048), Finset.mem_univ _⟩ (fun k => sr b h q k)

/-- Every shifted exponential is a positive real. -/
theorem wexp_real (hx : ∀ i, ∃ r : ℝ, x i = (r : EReal)) (hw1 : ∀ i, ∃ r : ℝ, w1 i = (r : EReal))
    (hb1 : ∀ i, ∃ r : ℝ, b1 i = (r : EReal)) (b : Fin 4) (h : Fin 16) (q k : Fin 2048) :
    ∃ r : ℝ, 0 < r ∧ wexp x w1 b1 b h q k = (r : EReal) := by
  obtain ⟨sr, hsr⟩ := score_real hx hw1 hb1 b h q k
  obtain ⟨mr, hmr⟩ := smax_real hx hw1 hb1 b h q
  refine ⟨Real.exp (sr - mr), Real.exp_pos _, ?_⟩
  unfold wexp
  rw [hsr, hmr, ← EReal.coe_sub]
  rfl

/-- Every row sum is a positive real. -/
theorem wsum_real (hx : ∀ i, ∃ r : ℝ, x i = (r : EReal)) (hw1 : ∀ i, ∃ r : ℝ, w1 i = (r : EReal))
    (hb1 : ∀ i, ∃ r : ℝ, b1 i = (r : EReal)) (b : Fin 4) (h : Fin 16) (q : Fin 2048) :
    ∃ r : ℝ, 0 < r ∧ wsum x w1 b1 b h q = (r : EReal) := by
  choose er her_pos her using wexp_real hx hw1 hb1
  refine ⟨∑ k : Fin 2048, er b h q k,
    Finset.sum_pos (fun k _ => her_pos b h q k) ⟨(0 : Fin 2048), Finset.mem_univ _⟩, ?_⟩
  unfold wsum
  simp only [her]
  rw [coe_sum]

/-- One division of the weighted sum by the row sum is the weighted sum of the normalised weights. -/
theorem attK_eq_attR (hx : ∀ i, ∃ r : ℝ, x i = (r : EReal)) (hw1 : ∀ i, ∃ r : ℝ, w1 i = (r : EReal))
    (hb1 : ∀ i, ∃ r : ℝ, b1 i = (r : EReal)) (b : Fin 4) (s : Fin 2048) (h : Fin 16) (d : Fin 64) :
    attK x w1 b1 b s h d = attR x w1 b1 b s h d := by
  choose qr hqr using qkv_real hx hw1 hb1
  choose er _ her using wexp_real hx hw1 hb1
  obtain ⟨L, hLpos, hL⟩ := wsum_real hx hw1 hb1 b h s
  have hne : L ≠ 0 := hLpos.ne'
  unfold attK attR
  simp only [hqr, her, hL, div_coe_coe _ _ hne]
  have hK : (∑ k : Fin 2048, (er b h s k : EReal) * (qr b k (vcol h d) : EReal))
      = ((∑ k : Fin 2048, er b h s k * qr b k (vcol h d) : ℝ) : EReal) := by
    rw [coe_sum]
    simp only [EReal.coe_mul]
  have hR : (∑ k : Fin 2048, ((er b h s k / L : ℝ) : EReal) * (qr b k (vcol h d) : EReal))
      = ((∑ k : Fin 2048, er b h s k / L * qr b k (vcol h d) : ℝ) : EReal) := by
    rw [coe_sum]
    simp only [EReal.coe_mul]
  rw [hK, hR, div_coe_coe _ _ hne, Finset.sum_div]
  refine congrArg _ (Finset.sum_congr rfl fun k _ => ?_)
  rw [div_mul_eq_mul_div]

variable (w2 : SW2.Idx → EReal) (b2 : SB2.Idx → EReal)

/-- The whole results of the two arrangements agree on real arguments x, w1, b1 (w2 and b2 are arbitrary). -/
theorem GK_eq_GR (hx : ∀ i, ∃ r : ℝ, x i = (r : EReal)) (hw1 : ∀ i, ∃ r : ℝ, w1 i = (r : EReal))
    (hb1 : ∀ i, ∃ r : ℝ, b1 i = (r : EReal)) :
    GK x w1 b1 w2 b2 = GR x w1 b1 w2 b2 := by
  have hatt : attK x w1 b1 = attR x w1 b1 := by
    funext b s h d
    exact attK_eq_attR hx hw1 hb1 b s h d
  unfold GK GR
  rw [hatt]

end Cert.AttnLaw

end
-- ==== Proof.FiniteArgs.lean ====
/-
  From the precondition to "every entry of x, w1, b1 is a real number".

  The precondition is the conjunction, over the five argument arrays, of "every entry a satisfies |a| < +∞", each
  conjunct an and-reduction over all axes of the elementwise comparison of max a (-a) with the constant whose
  word 0x7F800000 denotes +∞.  A conjunction equal to 1 has both conjuncts 1; an and-reduction over all axes equal to 1
  has every element 1; and an extended real a with max a (-a) < ⊤ is neither ⊥ nor ⊤, hence a real.
-/
import proofs.«132570_j36283883716940_2_alg».proof.Defs
import proofs.«132570_j36283883716940_2_alg».proof.Proof.Gen.Pre_finite_inputs
import Idealize.ShloMosaic.Lib.ReduceAll
import Idealize.ShloMosaic.Lib.ValueIdx

noncomputable section

namespace Cert.FiniteArgs

open Idealize.ShloMosaic Idealize.SL.Sem Cert.Pre_finite_inputs

/-- The rank-0 shape has one index. -/
instance : Subsingleton S_.Idx := ⟨fun a b => funext fun d => d.elim0⟩

/-- The word 0x7F800000 denotes +∞. -/
theorem ofBits_inf : Ideal.ofBits .f32 0x7F800000#32 = (⊤ : EReal) := by
  simp [Ideal.ofBits, Ideal.ieee]

/-- An extended real whose absolute value is below +∞ is a real. -/
theorem real_of_abs_lt_top (x : EReal) (h : max x (-x) < ⊤) : ∃ r : ℝ, x = (r : EReal) := by
  induction x using EReal.rec with
  | bot => simp at h
  | coe r => exact ⟨r, rfl⟩
  | top => simp at h

/-- An element whose comparison |x i| < +∞ came out 1 is a real. -/
theorem elem_real {s : Shape} (x : FVec Ideal s .f32) (h0 : S_.BroadcastsInDim s (![] : Fin 0 → Fin s.rank)) (i : s.Idx)
    (h : cmpf .olt (Host.absf x) (broadcastInDim s ![] h0 (constant (F := Ideal) S_ .f32 0x7F800000#32)) i = 1#1) :
    ∃ r : ℝ, x i = (r : EReal) := by
  refine real_of_abs_lt_top (x i) ?_
  have h' : BitVec.ofBool (decide (max (x i) (-(x i)) < Ideal.ofBits .f32 0x7F800000#32)) = 1#1 := h
  rw [ofBits_inf] at h'
  by_contra hc
  rw [decide_eq_false hc] at h'
  exact absurd h' (by decide)

/-- Under the precondition every entry of the first three argument arrays (x, w1, b1) is a real. -/
theorem real_args [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i : S4x2048x1024.Idx, ∃ r : ℝ, (m ((c.tc : Thread Cert.KernelIdeal.nD Cert.KernelIdeal.τ).loc Cert.KernelIdeal.main_arg0) : FVec Ideal S4x2048x1024 .f32) i = (r : EReal))
    ∧ (∀ i : S1024x3072.Idx, ∃ r : ℝ, (m ((c.tc : Thread Cert.KernelIdeal.nD Cert.KernelIdeal.τ).loc Cert.KernelIdeal.main_arg1) : FVec Ideal S1024x3072 .f32) i = (r : EReal))
    ∧ (∀ i : S3072.Idx, ∃ r : ℝ, (m ((c.tc : Thread Cert.KernelIdeal.nD Cert.KernelIdeal.τ).loc Cert.KernelIdeal.main_arg2) : FVec Ideal S3072 .f32) i = (r : EReal)) := by
  have h := congrFun (hpre c) ValueIdx.ix0
  dsimp only [Cert.Pre_finite_inputs.fn, Cert.Pre_finite_inputs.fn_part1] at h
  -- the outer conjunctions: drop the fifth and fourth arrays' conjuncts, keep the first three
  change IntOp.andi _ _ = 1#1 at h
  obtain ⟨h, -⟩ := IntOp.andi_eq_one.1 h
  change IntOp.andi _ _ = 1#1 at h
  obtain ⟨h, -⟩ := IntOp.andi_eq_one.1 h
  change IntOp.andi _ _ = 1#1 at h
  obtain ⟨h, h2⟩ := IntOp.andi_eq_one.1 h
  change IntOp.andi _ _ = 1#1 at h
  obtain ⟨h0, h1⟩ := IntOp.andi_eq_one.1 h
  exact ⟨fun i => elem_real _ _ i (Host.reduce_andi_all _ _ _ _ ValueIdx.ix0 h0 i),
    fun i => elem_real _ _ i (Host.reduce_andi_all _ _ _ _ ValueIdx.ix0 h1 i),
    fun i => elem_real _ _ i (Host.reduce_andi_all _ _ _ _ ValueIdx.ix0 h2 i)⟩

end Cert.FiniteArgs

end
-- ==== Proof.lean ====
/-
  Multi-head attention in three Pallas calls against its jnp reference, on the extended reals.

  The kernel projects the tokens (x · w1 + b1), runs softmax attention head by head — for each query row the scores against
  the keys of its batch, the exponentials of the scores shifted by their maximum, the weighted sum of the values, and ONE
  division by the sum of the exponentials — and projects the merged heads (· w2 + b2). The reference normalises every weight
  by the row sum first and takes the weighted sum after. Both are the function `AttnSpec.GK` / `AttnSpec.GR` of the argument
  arrays (modules KIValue, RefValue), and the two arrangements agree once every entry of x, w1, b1 is a real number
  (module AttnLaw): then every score is a real, the row sum is a positive real, and in the reals
  (Σ_k e_k · v_k) / L = Σ_k (e_k / L) · v_k. The precondition (every input finite) gives exactly that (module FiniteArgs).

  The three frames: each kernel program runs as five segments — host operations, the three calls, a host reshape — with every
  unscoped buffer's contents named at each boundary, and no segment writes an argument array (modules KRun, KIRun); the
  reference is a straight line of host operations (its generated run). The idealization rewrote nothing, so `preserves` is
  trivial.
-/
import proofs.«132570_j36283883716940_2_alg».proof.Defs
import proofs.«132570_j36283883716940_2_alg».proof.Proof.Gen.Kernel
import proofs.«132570_j36283883716940_2_alg».proof.Proof.Gen.KernelIdeal
import proofs.«132570_j36283883716940_2_alg».proof.Proof.Gen.ReferenceIdeal
import proofs.«132570_j36283883716940_2_alg».proof.Proof.Gen.Pre_finite_inputs
import proofs.«132570_j36283883716940_2_alg».proof.Proof.KRun
import proofs.«132570_j36283883716940_2_alg».proof.Proof.KIValue
import proofs.«132570_j36283883716940_2_alg».proof.Proof.RefValue
import proofs.«132570_j36283883716940_2_alg».proof.Proof.AttnLaw
import proofs.«132570_j36283883716940_2_alg».proof.Proof.FiniteArgs
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_k : Cert.frame_Kernel := fun m ρ _ => Cert.Kernel.Fr.frame m ρ

/-- So does the kernel read on the extended reals. -/
theorem frame_ki : Cert.frame_KernelIdeal := fun m ρ _ => Cert.KernelIdeal.Fr.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories agreeing on finite arguments, the kernel's result array ends at the sum-first
    arrangement of the arguments and the reference's at the weights-first arrangement: one function there. -/
theorem algebraic : Cert.algebraic_KernelIdeal_ReferenceIdeal := by
  intro m ρ m' ρ' hpre hagree
  refine ⟨fun c => Cert.AttnSpec.GK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)), Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw1, hb1⟩ := Cert.FiniteArgs.real_args m hpre c
  rw [Cert.ReferenceIdeal.Read.val_main_v31_eq, Cert.RefValue.ref_is_GR, (hagree c).1, (hagree c).2.1, (hagree c).2.2.1,
    (hagree c).2.2.2.1, (hagree c).2.2.2.2]
  exact (Cert.AttnLaw.GK_eq_GR _ _ hx hw1 hb1).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
